-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x3 : Shape := ⟨3, ![16, 4096, 3]⟩
abbrev S_ : Shape := ⟨0, ![]⟩

class Facts : Prop where
  bcast_S_S16x4096x3 : S_.BroadcastsInDim S16x4096x3 (![] : Fin 0 → Fin S16x4096x3.rank)
  reducesTo_S16x4096x3_S_d0_1_2 : S16x4096x3.ReducesTo [0, 1, 2] S_
  h_S_ : 0 < S_.numel

variable [Facts]

def fn {F : FTy → Type} [FloatOps F] (main_arg0 : FVec F S16x4096x3 .f32) (main_arg1 : FVec F S16x4096x3 .f32) : IVec S_ 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_c : IVec S_ 1 := constantI S_ 1 1#1
  let main_v3 : IVec S_ 1 := (fun x v => Host.reduce IntOp.andi x v reducesTo_S16x4096x3_S_d0_1_2 h_S_) main_v2 main_c
  let main_v4 : FVec F S16x4096x3 .f32 := Host.absf main_arg1
  let main_cst_0 : FVec F S_ .f32 := constant S_ .f32 0x7F800000#32
  let main_v5 : FVec F S16x4096x3 .f32 := broadcastInDim S16x4096x3 ![] bcast_S_S16x4096x3 main_cst_0
  let main_v6 : IVec S16x4096x3 1 := cmpf .olt main_v4 main_v5
  let main_c_1 : IVec S_ 1 := constantI S_ 1 1#1
  let main_v7 : IVec S_ 1 := (fun x v => Host.reduce IntOp.andi x v reducesTo_S16x4096x3_S_d0_1_2 h_S_) main_v6 main_c_1
  let main_v8 : IVec S_ 1 := andi main_v3 main_v7
  main_v8
-- ==== Kernel.lean ====
abbrev S16x4096x3 : Shape := ⟨3, ![16, 4096, 3]⟩
abbrev S16x4096x1 : Shape := ⟨3, ![16, 4096, 1]⟩
abbrev S16x1x4096 : Shape := ⟨3, ![16, 1, 4096]⟩
abbrev S1x1024x3 : Shape := ⟨3, ![1, 1024, 3]⟩
abbrev S1x4096x3 : Shape := ⟨3, ![1, 4096, 3]⟩
abbrev S1x1024x1 : Shape := ⟨3, ![1, 1024, 1]⟩
abbrev S1x1x4096 : Shape := ⟨3, ![1, 1, 4096]⟩
abbrev S1024x3 : Shape := ⟨2, ![1024, 3]⟩
abbrev S4096x3 : Shape := ⟨2, ![4096, 3]⟩
abbrev S1024 : Shape := ⟨1, ![1024]⟩
abbrev S1024x1 : Shape := ⟨2, ![1024, 1]⟩
abbrev S4096 : Shape := ⟨1, ![4096]⟩
abbrev S4096x1 : Shape := ⟨2, ![4096, 1]⟩
abbrev S1x4096 : Shape := ⟨2, ![1, 4096]⟩
abbrev S1024x4096 : Shape := ⟨2, ![1024, 4096]⟩
abbrev S_ : Shape := ⟨0, ![]⟩

abbrev nBuf : Space → Nat
  | .hbm => 13
  | .vmem => 8
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x1, .f32⟩
  | .hbm, ⟨3, _⟩ => ⟨S16x1x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x4096x3, .f32⟩
  | .local _ .vmem, ⟨3, _⟩ => ⟨S1x4096x3, .f32⟩
  | .local _ .vmem, ⟨4, _⟩ => ⟨S1x1024x1, .f32⟩
  | .local _ .vmem, ⟨5, _⟩ => ⟨S1x1024x1, .f32⟩
  | .local _ .vmem, ⟨6, _⟩ => ⟨S1x1x4096, .f32⟩
  | .local _ .vmem, ⟨7, _⟩ => ⟨S1x1x4096, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v46 : BitVec 1 := Scalar.cmpi .eq arg1 c0_i32
  let v47 : BitVec 32 := Scalar.extui v46
  let c0_i32_12 : BitVec 32 := 0#32
  let v48 : BitVec 1 := Scalar.cmpi .ne v47 c0_i32_12
  v48

def k0_cond2 (i : grid0.Coords) : BitVec 1 :=
  let arg1 : BitVec 32 := BitVec.ofNat 32 (i 1).val
  let c0_i32_13 : BitVec 32 := 0#32
  let v49 : BitVec 1 := Scalar.cmpi .sgt arg1 c0_i32_13
  let v50 : BitVec 32 := Scalar.extui v49
  let c0_i32_14 : BitVec 32 := 0#32
  let v51 : BitVec 1 := Scalar.cmpi .ne v50 c0_i32_14
  v51

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  reduces_S1024x3_S1024 : S1024x3.Reduces [1] S1024
  shapeCasts_S1024_S1024x1 : S1024.ShapeCasts S1024x1
  reduces_S4096x3_S4096 : S4096x3.Reduces [1] S4096
  slices_S1024x3_o0_0_S1024x1 : S1024x3.Slices ![0, 0] S1024x1
  slices_S4096x3_o0_0_S4096x1 : S4096x3.Slices ![0, 0] S4096x1
  shapeCasts_S4096x1_S4096 : S4096x1.ShapeCasts S4096
  shapeCasts_S4096_S1x4096 : S4096.ShapeCasts S1x4096
  broadcasts_S1024x1_S1024x4096 : S1024x1.Broadcasts S1024x4096
  broadcasts_S1x4096_S1024x4096 : S1x4096.Broadcasts S1024x4096
  slices_S1024x3_o0_1_S1024x1 : S1024x3.Slices ![0, 1] S1024x1
  slices_S4096x3_o0_1_S4096x1 : S4096x3.Slices ![0, 1] S4096x1
  slices_S1024x3_o0_2_S1024x1 : S1024x3.Slices ![0, 2] S1024x1
  slices_S4096x3_o0_2_S4096x1 : S4096x3.Slices ![0, 2] S4096x1
  reduces_S1024x4096_S1024 : S1024x4096.Reduces [1] S1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  reduces_S1024x4096_S4096 : S1024x4096.Reduces [0] S4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  reducesTo_S16x4096x1_S_d0_1_2 : S16x4096x1.ReducesTo [0, 1, 2] S_
  h_S_ : 0 < S_.numel
  reducesTo_S16x1x4096_S_d0_1_2 : S16x1x4096.ReducesTo [0, 1, 2] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S16x4096x3.size a
  hwx0_0 : ∀ i : grid0.Coords, EltTy.bits .f32 = 32 ∨ (Rect.block (s := S16x4096x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x3.size a ≤ S16x4096x3.size a
  hwx0_1 : ∀ i : grid0.Coords, EltTy.bits .f32 = 32 ∨ (Rect.block (s := S16x4096x3) S1x4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S16x4096x1.size a
  hwx0_2 : ∀ i : grid0.Coords, EltTy.bits .f32 = 32 ∨ (Rect.block (s := S16x4096x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S16x1x4096.size a
  hwx0_3 : ∀ i : grid0.Coords, EltTy.bits .f32 = 32 ∨ (Rect.block (s := S16x1x4096) S1x1x4096.size (cc0_transform_3 i) (hinb0_3 i)).WholeWords (EltTy.packing .f32)

variable [Facts₀]

abbrev win0_0 : Pipeline.Window sig grid0 :=
  Pipeline.Window.ofSpec (Memref.whole main_arg1) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

class Facts : Prop extends Facts₀ where

variable [Facts]
-- ==== ReferenceIdeal.lean ====
abbrev S16x4096x3 : Shape := ⟨3, ![16, 4096, 3]⟩
abbrev S_ : Shape := ⟨0, ![]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x3, .f32⟩
  | .hbm, ⟨3, _⟩ => ⟨S_, .f32⟩
  | .hbm, ⟨4, _⟩ => ⟨S16x4096, .f32⟩
  | .hbm, ⟨5, _⟩ => ⟨S16x4096x3, .f32⟩
  | .hbm, ⟨6, _⟩ => ⟨S_, .f32⟩
  | .hbm, ⟨7, _⟩ => ⟨S16x4096, .f32⟩
  | .hbm, ⟨8, _⟩ => ⟨S16x4096x4096, .f32⟩
  | .hbm, ⟨9, _⟩ => ⟨S16x4096x1, .f32⟩
  | .hbm, ⟨10, _⟩ => ⟨S16x1x4096, .f32⟩
  | .hbm, ⟨11, _⟩ => ⟨S16x4096x4096, .f32⟩
  | .hbm, ⟨12, _⟩ => ⟨S16x4096x4096, .f32⟩
  | .hbm, ⟨13, _⟩ => ⟨S16x4096x4096, .f32⟩
  | .hbm, ⟨14, _⟩ => ⟨S_, .f32⟩
  | .hbm, ⟨15, _⟩ => ⟨S16x4096x4096, .f32⟩
  | .hbm, ⟨16, _⟩ => ⟨S16x4096x4096, .f32⟩
  | .hbm, ⟨17, _⟩ => ⟨S16x4096x4096, .f32⟩
  | .hbm, ⟨18, _⟩ => ⟨S_, .f32⟩
  | .hbm, ⟨19, _⟩ => ⟨S16x4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S16x4096, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d1 : S16x4096x4096.ReducesTo [1] S16x4096
  reducesTo_S16x4096_S_d0_1 : S16x4096.ReducesTo [0, 1] S_
  reducesTo_S16x4096x4096_S16x4096_d2 : S16x4096x4096.ReducesTo [2] S16x4096
  dot_S16x4096x3_S16x4096x3_S16x4096x4096_2_2_1_1_0_0_wf : DotDims.WF S16x4096x3 S16x4096x3 S16x4096x4096 [2] [2] [1] [1] [0] [0]

variable [Facts₀]

def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.K.Common.lean ====
/-
  The grid of the one kernel launch is 16 batches × 4 row tiles, walked batch by batch: point `t` is tile `t % 4` of
  batch `t / 4`. The body resets the running column minima at the first tile of a batch and combines into them at the
  three later tiles; exactly one of the two conditions holds at every point, so the column-minima window is stored at
  every point. Here: the two conditions decided over the grid, and the staging memrefs the body is called with.
-/
import proofs.«138694_j11665131176430_1_alg».proof.Proof.Gen.Kernel.Frame
import proofs.«138694_j11665131176430_1_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The reset condition holds exactly at the first tile of each batch. -/
theorem first_iff : ∀ t : Fin cfg0.N, k0_cond1 (grid0.coords t) = 1#1 ↔ t.val % 4 = 0 :=
  (by decide +kernel : ∀ t : Fin grid0.N, k0_cond1 (grid0.coords t) = 1#1 ↔ t.val % 4 = 0)

/-- The combine condition holds exactly at the later tiles of each batch. -/
theorem later_iff : ∀ t : Fin cfg0.N, k0_cond2 (grid0.coords t) = 1#1 ↔ ¬ t.val % 4 = 0 :=
  (by decide +kernel : ∀ t : Fin grid0.N, k0_cond2 (grid0.coords t) = 1#1 ↔ ¬ t.val % 4 = 0)

/-- A tile index is zero or positive, so one of the two stores into the column-minima window happens: the window is
    idle at no coordinates. -/
theorem live3 (i : grid0.Coords) : idle0 3 i = false := by
  show (!(k0_cond1 i == 1#1) && !(k0_cond2 i == 1#1)) = false
  unfold k0_cond1 k0_cond2
  have h : (i 1).val < 4 := (i 1).isLt
  generalize (i 1).val = n at h ⊢
  obtain _ | _ | _ | _ | n := n
  · decide
  · decide
  · decide
  · decide
  · exact absurd h (by omega)

/-- The same, in the launch configuration's spelling. -/
theorem live3' (i : cfg0.grid.Coords) : cfg0.idle 3 i = false := live3 i

/-- One staging buffer of each output window, through which its contents are stated. -/
abbrev VO2 : View sig .tc .vmem S1x1024x1 .f32 := (Memref.whole cc0_stg2_0 : Memref sig .tc .vmem S1x1024x1 .f32).view
abbrev VO3 : View sig .tc .vmem S1x1x4096 .f32 := (Memref.whole cc0_stg3_0 : Memref sig .tc .vmem S1x1x4096 .f32).view

/-- Each window's current staging memref at point `t`, as the pipeline passes it, and its wholeness. -/
abbrev ms0 (t : Fin cfg0.N) : Memref sig .tc .vmem S1x1024x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4096x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)

end Cert.Kernel.Hand

end
-- ==== Proof.K.RunFirst.lean ====
/-
  The body at the first row tile of a batch. It loads the tile of ground-truth rows and the whole predicted cloud,
  stores the rows' minima into the row-minima window whole, and stores the tile's column minima into the
  column-minima window whole (the reset). What the two output buffers end with is found as the list of stores made.
-/
import proofs.«138694_j11665131176430_1_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a first tile: on whole staging memrefs, the inputs' at their contents and the outputs' at anything, the body runs
    to a continuation holding the inputs' as they were and each output's buffer with its stores written. -/
noncomputable def runFirst (c : Dev nD) (i : grid0.Coords) (arg2 : Memref sig .tc .vmem S1x1024x3 .f32) (harg2 : arg2.IsWhole) (arg3 : Memref sig .tc .vmem S1x4096x3 .f32) (harg3 : arg3.IsWhole) (arg4 : Memref sig .tc .vmem S1x1024x1 .f32) (harg4 : arg4.IsWhole) (arg5 : Memref sig .tc .vmem S1x1x4096 .f32) (harg5 : arg5.IsWhole)
    (hc1 : k0_cond1 i = 1#1) (hc2 : ¬ k0_cond2 i = 1#1)
    (x0 : Vec F S1x1024x3 .f32) (x1 : Vec F S1x4096x3 .f32) :
    Σ' (L2 : List (View.Piece (Elt F) S1x1024x1 .f32)), { L3 : List (View.Piece (Elt F) S1x1x4096 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Hand

end
-- ==== Proof.K.RunLater.lean ====
/-
  The body at a later row tile of a batch. It loads the tile of ground-truth rows and the whole predicted cloud,
  stores the rows' minima into the row-minima window whole, and stores into the column-minima window the minimum of
  what that window held (the running minima of the earlier tiles) and this tile's column minima.
-/
import proofs.«138694_j11665131176430_1_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a later tile: on whole staging memrefs, the inputs' at their contents, the column-minima buffer at its running
    contents `xo3` and the row-minima buffer at anything, the body runs to a continuation holding the inputs' as they
    were and each output's buffer with its stores written. -/
noncomputable def runLater (c : Dev nD) (i : grid0.Coords) (arg2 : Memref sig .tc .vmem S1x1024x3 .f32) (harg2 : arg2.IsWhole) (arg3 : Memref sig .tc .vmem S1x4096x3 .f32) (harg3 : arg3.IsWhole) (arg4 : Memref sig .tc .vmem S1x1024x1 .f32) (harg4 : arg4.IsWhole) (arg5 : Memref sig .tc .vmem S1x1x4096 .f32) (harg5 : arg5.IsWhole)
    (hc1 : ¬ k0_cond1 i = 1#1) (hc2 : k0_cond2 i = 1#1)
    (x0 : Vec F S1x1024x3 .f32) (x1 : Vec F S1x4096x3 .f32) (xo3 : Vec F S1x1x4096 .f32) :
    Σ' (L2 : List (View.Piece (Elt F) S1x1024x1 .f32)), { L3 : List (View.Piece (Elt F) S1x1x4096 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xo3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Hand

end
-- ==== Proof.K.Body.lean ====
/-
  The frame of the kernel launch, from the two runs of its body. After the body at a point the row-minima buffer
  holds the stores of that point; the column-minima buffer holds, at the first tile of a batch, that tile's stores, and
  at a later tile the stores of the run that started from what the tile before left — a recursion on the point, since
  the window is written back only after the last tile of a batch. With these as the proof data every point's
  obligation is one of the two runs, and the launch theorem gives the run of the whole program: it terminates, faults
  nowhere, and leaves the argument arrays as they were.
-/
import proofs.«138694_j11665131176430_1_alg».proof.Proof.K.RunFirst
import proofs.«138694_j11665131176430_1_alg».proof.Proof.K.RunLater
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stores of each run cover the block they are made into -/

theorem cover_first_rows (c : Dev nD) (i : grid0.Coords) (arg2 : Memref sig .tc .vmem S1x1024x3 .f32) (harg2 : arg2.IsWhole) (arg3 : Memref sig .tc .vmem S1x4096x3 .f32) (harg3 : arg3.IsWhole) (arg4 : Memref sig .tc .vmem S1x1024x1 .f32) (harg4 : arg4.IsWhole) (arg5 : Memref sig .tc .vmem S1x1x4096 .f32) (harg5 : arg5.IsWhole)
    (hc1 : k0_cond1 i = 1#1) (hc2 : ¬ k0_cond2 i = 1#1) (x0 : Vec F S1x1024x3 .f32) (x1 : Vec F S1x4096x3 .f32) (y : S1x1024x1.Idx) :
    ∃ pc ∈ (runFirst c i arg2 harg2 arg3 harg3 arg4 harg4 arg5 harg5 hc1 hc2 x0 x1).1, y ∈ pc.1.set :=
  View.cover_of_tiledL (runFirst c i arg2 harg2 arg3 harg3 arg4 harg4 arg5 harg5 hc1 hc2 x0 x1).1 S1x1024x1.size (by sl_kernel_rfl) y

theorem cover_first_cols (c : Dev nD) (i : grid0.Coords) (arg2 : Memref sig .tc .vmem S1x1024x3 .f32) (harg2 : arg2.IsWhole) (arg3 : Memref sig .tc .vmem S1x4096x3 .f32) (harg3 : arg3.IsWhole) (arg4 : Memref sig .tc .vmem S1x1024x1 .f32) (harg4 : arg4.IsWhole) (arg5 : Memref sig .tc .vmem S1x1x4096 .f32) (harg5 : arg5.IsWhole)
    (hc1 : k0_cond1 i = 1#1) (hc2 : ¬ k0_cond2 i = 1#1) (x0 : Vec F S1x1024x3 .f32) (x1 : Vec F S1x4096x3 .f32) (y : S1x1x4096.Idx) :
    ∃ pc ∈ (runFirst c i arg2 harg2 arg3 harg3 arg4 harg4 arg5 harg5 hc1 hc2 x0 x1).2.1, y ∈ pc.1.set :=
  View.cover_of_tiledL (runFirst c i arg2 harg2 arg3 harg3 arg4 harg4 arg5 harg5 hc1 hc2 x0 x1).2.1 S1x1x4096.size (by sl_kernel_rfl) y

theorem cover_later_rows (c : Dev nD) (i : grid0.Coords) (arg2 : Memref sig .tc .vmem S1x1024x3 .f32) (harg2 : arg2.IsWhole) (arg3 : Memref sig .tc .vmem S1x4096x3 .f32) (harg3 : arg3.IsWhole) (arg4 : Memref sig .tc .vmem S1x1024x1 .f32) (harg4 : arg4.IsWhole) (arg5 : Memref sig .tc .vmem S1x1x4096 .f32) (harg5 : arg5.IsWhole)
    (hc1 : ¬ k0_cond1 i = 1#1) (hc2 : k0_cond2 i = 1#1) (x0 : Vec F S1x1024x3 .f32) (x1 : Vec F S1x4096x3 .f32) (xo3 : Vec F S1x1x4096 .f32) (y : S1x1024x1.Idx) :
    ∃ pc ∈ (runLater c i arg2 harg2 arg3 harg3 arg4 harg4 arg5 harg5 hc1 hc2 x0 x1 xo3).1, y ∈ pc.1.set :=
  View.cover_of_tiledL (runLater c i arg2 harg2 arg3 harg3 arg4 harg4 arg5 harg5 hc1 hc2 x0 x1 xo3).1 S1x1024x1.size (by sl_kernel_rfl) y

theorem cover_later_cols (c : Dev nD) (i : grid0.Coords) (arg2 : Memref sig .tc .vmem S1x1024x3 .f32) (harg2 : arg2.IsWhole) (arg3 : Memref sig .tc .vmem S1x4096x3 .f32) (harg3 : arg3.IsWhole) (arg4 : Memref sig .tc .vmem S1x1024x1 .f32) (harg4 : arg4.IsWhole) (arg5 : Memref sig .tc .vmem S1x1x4096 .f32) (harg5 : arg5.IsWhole)
    (hc1 : ¬ k0_cond1 i = 1#1) (hc2 : k0_cond2 i = 1#1) (x0 : Vec F S1x1024x3 .f32) (x1 : Vec F S1x4096x3 .f32) (xo3 : Vec F S1x1x4096 .f32) (y : S1x1x4096.Idx) :
    ∃ pc ∈ (runLater c i arg2 harg2 arg3 harg3 arg4 harg4 arg5 harg5 hc1 hc2 x0 x1 xo3).2.1, y ∈ pc.1.set :=
  View.cover_of_tiledL (runLater c i arg2 harg2 arg3 harg3 arg4 harg4 arg5 harg5 hc1 hc2 x0 x1 xo3).2.1 S1x1x4096.size (by sl_kernel_rfl) y

/-! ## What each run leaves in the two output buffers -/

def rowsFirst (c : Dev nD) (i : grid0.Coords) (arg2 : Memref sig .tc .vmem S1x1024x3 .f32) (harg2 : arg2.IsWhole) (arg3 : Memref sig .tc .vmem S1x4096x3 .f32) (harg3 : arg3.IsWhole) (arg4 : Memref sig .tc .vmem S1x1024x1 .f32) (harg4 : arg4.IsWhole) (arg5 : Memref sig .tc .vmem S1x1x4096 .f32) (harg5 : arg5.IsWhole)
    (hc1 : k0_cond1 i = 1#1) (hc2 : ¬ k0_cond2 i = 1#1) (x0 : Vec F S1x1024x3 .f32) (x1 : Vec F S1x4096x3 .f32) : Vec F S1x1024x1 .f32 :=
  VO2.read (Elt F) (VO2.writes (Elt F) VO2.junk (runFirst c i arg2 harg2 arg3 harg3 arg4 harg4 arg5 harg5 hc1 hc2 x0 x1).1)

def colsFirst (c : Dev nD) (i : grid0.Coords) (arg2 : Memref sig .tc .vmem S1x1024x3 .f32) (harg2 : arg2.IsWhole) (arg3 : Memref sig .tc .vmem S1x4096x3 .f32) (harg3 : arg3.IsWhole) (arg4 : Memref sig .tc .vmem S1x1024x1 .f32) (harg4 : arg4.IsWhole) (arg5 : Memref sig .tc .vmem S1x1x4096 .f32) (harg5 : arg5.IsWhole)
    (hc1 : k0_cond1 i = 1#1) (hc2 : ¬ k0_cond2 i = 1#1) (x0 : Vec F S1x1024x3 .f32) (x1 : Vec F S1x4096x3 .f32) : Vec F S1x1x4096 .f32 :=
  VO3.read (Elt F) (VO3.writes (Elt F) VO3.junk (runFirst c i arg2 harg2 arg3 harg3 arg4 harg4 arg5 harg5 hc1 hc2 x0 x1).2.1)

def rowsLater (c : Dev nD) (i : grid0.Coords) (arg2 : Memref sig .tc .vmem S1x1024x3 .f32) (harg2 : arg2.IsWhole) (arg3 : Memref sig .tc .vmem S1x4096x3 .f32) (harg3 : arg3.IsWhole) (arg4 : Memref sig .tc .vmem S1x1024x1 .f32) (harg4 : arg4.IsWhole) (arg5 : Memref sig .tc .vmem S1x1x4096 .f32) (harg5 : arg5.IsWhole)
    (hc1 : ¬ k0_cond1 i = 1#1) (hc2 : k0_cond2 i = 1#1) (x0 : Vec F S1x1024x3 .f32) (x1 : Vec F S1x4096x3 .f32) (xo3 : Vec F S1x1x4096 .f32) : Vec F S1x1024x1 .f32 :=
  VO2.read (Elt F) (VO2.writes (Elt F) VO2.junk (runLater c i arg2 harg2 arg3 harg3 arg4 harg4 arg5 harg5 hc1 hc2 x0 x1 xo3).1)

def colsLater (c : Dev nD) (i : grid0.Coords) (arg2 : Memref sig .tc .vmem S1x1024x3 .f32) (harg2 : arg2.IsWhole) (arg3 : Memref sig .tc .vmem S1x4096x3 .f32) (harg3 : arg3.IsWhole) (arg4 : Memref sig .tc .vmem S1x1024x1 .f32) (harg4 : arg4.IsWhole) (arg5 : Memref sig .tc .vmem S1x1x4096 .f32) (harg5 : arg5.IsWhole)
    (hc1 : ¬ k0_cond1 i = 1#1) (hc2 : k0_cond2 i = 1#1) (x0 : Vec F S1x1024x3 .f32) (x1 : Vec F S1x4096x3 .f32) (xo3 : Vec F S1x1x4096 .f32) : Vec F S1x1x4096 .f32 :=
  VO3.read (Elt F) (VO3.writes (Elt F) VO3.junk (runLater c i arg2 harg2 arg3 harg3 arg4 harg4 arg5 harg5 hc1 hc2 x0 x1 xo3).2.1)

/-! ## Point by point -/

/-- What the column-minima buffer holds after the body at position `n`: the reset at the first tile of a batch, the
    combination with what position `n - 1` left at a later one. -/
def colsAt (c : Dev nD) : (n : ℕ) → n < cfg0.N → Vec F S1x1x4096 .f32
  | 0, hn => colsFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((first_iff ⟨0, hn⟩).mpr (Nat.zero_mod _)) (fun h => (later_iff ⟨0, hn⟩).mp h (Nat.zero_mod _)) (iblk m c 0 ⟨0, hn⟩) (iblk m c 1 ⟨0, hn⟩)
  | n + 1, hn =>
    if h0 : (n + 1) % 4 = 0 then
      colsFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((first_iff ⟨n + 1, hn⟩).mpr h0) (fun h => (later_iff ⟨n + 1, hn⟩).mp h h0) (iblk m c 0 ⟨n + 1, hn⟩) (iblk m c 1 ⟨n + 1, hn⟩)
    else
      colsLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((first_iff ⟨n + 1, hn⟩).mp h)) ((later_iff ⟨n + 1, hn⟩).mpr h0) (iblk m c 0 ⟨n + 1, hn⟩) (iblk m c 1 ⟨n + 1, hn⟩) (colsAt c n (Nat.lt_of_succ_lt hn))

/-- What the row-minima buffer holds after the body at point `t`. -/
def rowsAt (c : Dev nD) (t : Fin cfg0.N) : Vec F S1x1024x1 .f32 :=
  if h0 : t.val % 4 = 0 then
    rowsFirst c (grid0.coords t) (ms0 t) (hs0 t) (ms1 t) (hs1 t) (ms2 t) (hs2 t) (ms3 t) (hs3 t) ((first_iff t).mpr h0) (fun h => (later_iff t).mp h h0) (iblk m c 0 t) (iblk m c 1 t)
  else
    rowsLater c (grid0.coords t) (ms0 t) (hs0 t) (ms1 t) (hs1 t) (ms2 t) (hs2 t) (ms3 t) (hs3 t) (fun h => h0 ((first_iff t).mp h)) ((later_iff t).mpr h0) (iblk m c 0 t) (iblk m c 1 t)
      (colsAt m c (t.val - 1) (Nat.lt_of_le_of_lt (Nat.sub_le _ _) t.isLt))

theorem colsAt_first (c : Dev nD) (t : Fin cfg0.N) (h0 : t.val % 4 = 0) :
    colsAt m c t.val t.isLt = colsFirst c (grid0.coords t) (ms0 t) (hs0 t) (ms1 t) (hs1 t) (ms2 t) (hs2 t) (ms3 t) (hs3 t) ((first_iff t).mpr h0) (fun h => (later_iff t).mp h h0) (iblk m c 0 t) (iblk m c 1 t) := by
  obtain ⟨n, hn⟩ := t
  cases n with
  | zero => exact rfl
  | succ n => exact (dif_pos h0).trans rfl

theorem colsAt_later (c : Dev nD) (t : Fin cfg0.N) (h0 : ¬ t.val % 4 = 0) :
    colsAt m c t.val t.isLt = colsLater c (grid0.coords t) (ms0 t) (hs0 t) (ms1 t) (hs1 t) (ms2 t) (hs2 t) (ms3 t) (hs3 t) (fun h => h0 ((first_iff t).mp h)) ((later_iff t).mpr h0) (iblk m c 0 t) (iblk m c 1 t)
      (colsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

theorem rowsAt_first (c : Dev nD) (t : Fin cfg0.N) (h0 : t.val % 4 = 0) :
    rowsAt m c t = rowsFirst c (grid0.coords t) (ms0 t) (hs0 t) (ms1 t) (hs1 t) (ms2 t) (hs2 t) (ms3 t) (hs3 t) ((first_iff t).mpr h0) (fun h => (later_iff t).mp h h0) (iblk m c 0 t) (iblk m c 1 t) := dif_pos h0

theorem rowsAt_later (c : Dev nD) (t : Fin cfg0.N) (h0 : ¬ t.val % 4 = 0) :
    rowsAt m c t = rowsLater c (grid0.coords t) (ms0 t) (hs0 t) (ms1 t) (hs1 t) (ms2 t) (hs2 t) (ms3 t) (hs3 t) (fun h => h0 ((first_iff t).mp h)) ((later_iff t).mpr h0) (iblk m c 0 t) (iblk m c 1 t)
      (colsAt m c (t.val - 1) (Nat.lt_of_le_of_lt (Nat.sub_le _ _) t.isLt)) := dif_neg h0

/-! ## The proof data -/

/-- On core `c`: the arrays as the launch finds them; after the body at point `t` each input's buffer at its block, the
    row-minima buffer at `rowsAt`, the column-minima buffer at `colsAt`; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => rowsAt m c t
    | ⟨3, _⟩ => colsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = rowsAt m c t := by dsimp only [dats]
theorem after3 (c : Dev nD) (t : Fin cfg0.N) : (dats m 0 c).after 3 t = colsAt m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At a later tile of a batch the column-minima buffer holds what the body left at the point before: the window is
    written back only after the last tile of a batch, and it is idle nowhere. -/
theorem before3_later (c : Dev nD) (t : Fin cfg0.N) (h0 : ¬ t.val % 4 = 0) (d) :
    (dats m 0 c).before 3 t d = colsAt m c (t.val - 1) (Nat.lt_of_le_of_lt (Nat.sub_le _ _) t.isLt) := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    live3' (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point: the inputs' memrefs hold their blocks; the point is a first tile or a later one; at a later
    one the column-minima buffer holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  by_cases h0 : t.val % 4 = 0
  · rw [colsAt_first m c t h0, rowsAt_first m c t h0]
    unfold rowsFirst colsFirst
    iintro ⟨HΦ, Ho, ⟨%d0, H0⟩, ⟨%d1, H1⟩, ⟨%d2, H2⟩, ⟨%d3, H3⟩⟩
    iapply ((runFirst c (grid0.coords t) _ _ _ _ _ _ _ _ ((first_iff t).mpr h0) (fun h => (later_iff t).mp h h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover_first_rows c _ _ _ _ _ _ _ _ _ _ _ _ _)
    unfold owns; iexists _; isplitr
    swap; · iexact H3
    ipureintro; exact View.read_writes_of_cover _ _ _ _ _ (cover_first_cols c _ _ _ _ _ _ _ _ _ _ _ _ _)
  · rw [colsAt_later m c t h0, rowsAt_later m c t h0]
    simp only [before3_later m c t h0]
    unfold rowsLater colsLater
    iintro ⟨HΦ, Ho, ⟨%d0, H0⟩, ⟨%d1, H1⟩, ⟨%d2, H2⟩, ⟨%d3, H3⟩⟩
    iapply ((runLater c (grid0.coords t) _ _ _ _ _ _ _ _ (fun h => h0 ((first_iff t).mp h)) ((later_iff t).mpr h0) (iblk m c 0 t) (iblk m c 1 t) _).2.2 Set.univ _)
    isplitl [H0]; · iexact H0
    isplitl [H1]; · iexact H1
    isplitl [H2]; · iexists _; iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover_later_rows c _ _ _ _ _ _ _ _ _ _ _ _ _ _)
    unfold owns; iexists _; isplitr
    swap; · iexact H3
    ipureintro; exact View.read_writes_of_cover _ _ _ _ _ (cover_later_cols c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0, live3' (cfg0.grid.coords t)]
  exact sound_body m c t

/-! ## The run and the frame -/

set_option backward.isDefEq.respectTransparency.types false in
/-- Every weakly fair execution of the program terminates, and every final state has every array of the launch at what
    the proof data computes and every other buffer as the host lines after the launch leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KI.Common.lean ====
/-
  The grid of the one kernel launch is 16 batches × 4 row tiles, walked batch by batch: point `t` is tile `t % 4` of
  batch `t / 4`. The body resets the running column minima at the first tile of a batch and combines into them at the
  three later tiles; exactly one of the two conditions holds at every point, so the column-minima window is stored at
  every point. Here: the two conditions decided over the grid, and the staging memrefs the body is called with.
-/
import proofs.«138694_j11665131176430_1_alg».proof.Proof.Gen.KernelIdeal.Frame
import proofs.«138694_j11665131176430_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The reset condition holds exactly at the first tile of each batch. -/
theorem first_iff : ∀ t : Fin cfg0.N, k0_cond1 (grid0.coords t) = 1#1 ↔ t.val % 4 = 0 :=
  (by decide +kernel : ∀ t : Fin grid0.N, k0_cond1 (grid0.coords t) = 1#1 ↔ t.val % 4 = 0)

/-- The combine condition holds exactly at the later tiles of each batch. -/
theorem later_iff : ∀ t : Fin cfg0.N, k0_cond2 (grid0.coords t) = 1#1 ↔ ¬ t.val % 4 = 0 :=
  (by decide +kernel : ∀ t : Fin grid0.N, k0_cond2 (grid0.coords t) = 1#1 ↔ ¬ t.val % 4 = 0)

/-- A tile index is zero or positive, so one of the two stores into the column-minima window happens: the window is
    idle at no coordinates. -/
theorem live3 (i : grid0.Coords) : idle0 3 i = false := by
  show (!(k0_cond1 i == 1#1) && !(k0_cond2 i == 1#1)) = false
  unfold k0_cond1 k0_cond2
  have h : (i 1).val < 4 := (i 1).isLt
  generalize (i 1).val = n at h ⊢
  obtain _ | _ | _ | _ | n := n
  · decide
  · decide
  · decide
  · decide
  · exact absurd h (by omega)

/-- The same, in the launch configuration's spelling. -/
theorem live3' (i : cfg0.grid.Coords) : cfg0.idle 3 i = false := live3 i

/-- One staging buffer of each output window, through which its contents are stated. -/
abbrev VO2 : View sig .tc .vmem S1x1024x1 .f32 := (Memref.whole cc0_stg2_0 : Memref sig .tc .vmem S1x1024x1 .f32).view
abbrev VO3 : View sig .tc .vmem S1x1x4096 .f32 := (Memref.whole cc0_stg3_0 : Memref sig .tc .vmem S1x1x4096 .f32).view

/-- Each window's current staging memref at point `t`, as the pipeline passes it, and its wholeness. -/
abbrev ms0 (t : Fin cfg0.N) : Memref sig .tc .vmem S1x1024x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4096x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)

end Cert.KernelIdeal.Hand

end
-- ==== Proof.KI.RunFirst.lean ====
/-
  The body at the first row tile of a batch. It loads the tile of ground-truth rows and the whole predicted cloud,
  stores the rows' minima into the row-minima window whole, and stores the tile's column minima into the
  column-minima window whole (the reset). What the two output buffers end with is found as the list of stores made.
-/
import proofs.«138694_j11665131176430_1_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a first tile: on whole staging memrefs, the inputs' at their contents and the outputs' at anything, the body runs
    to a continuation holding the inputs' as they were and each output's buffer with its stores written. -/
noncomputable def runFirst (c : Dev nD) (i : grid0.Coords) (arg2 : Memref sig .tc .vmem S1x1024x3 .f32) (harg2 : arg2.IsWhole) (arg3 : Memref sig .tc .vmem S1x4096x3 .f32) (harg3 : arg3.IsWhole) (arg4 : Memref sig .tc .vmem S1x1024x1 .f32) (harg4 : arg4.IsWhole) (arg5 : Memref sig .tc .vmem S1x1x4096 .f32) (harg5 : arg5.IsWhole)
    (hc1 : k0_cond1 i = 1#1) (hc2 : ¬ k0_cond2 i = 1#1)
    (x0 : Vec F S1x1024x3 .f32) (x1 : Vec F S1x4096x3 .f32) :
    Σ' (L2 : List (View.Piece (Elt F) S1x1024x1 .f32)), { L3 : List (View.Piece (Elt F) S1x1x4096 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Hand

end
-- ==== Proof.KI.RunLater.lean ====
/-
  The body at a later row tile of a batch. It loads the tile of ground-truth rows and the whole predicted cloud,
  stores the rows' minima into the row-minima window whole, and stores into the column-minima window the minimum of
  what that window held (the running minima of the earlier tiles) and this tile's column minima.
-/
import proofs.«138694_j11665131176430_1_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a later tile: on whole staging memrefs, the inputs' at their contents, the column-minima buffer at its running
    contents `xo3` and the row-minima buffer at anything, the body runs to a continuation holding the inputs' as they
    were and each output's buffer with its stores written. -/
noncomputable def runLater (c : Dev nD) (i : grid0.Coords) (arg2 : Memref sig .tc .vmem S1x1024x3 .f32) (harg2 : arg2.IsWhole) (arg3 : Memref sig .tc .vmem S1x4096x3 .f32) (harg3 : arg3.IsWhole) (arg4 : Memref sig .tc .vmem S1x1024x1 .f32) (harg4 : arg4.IsWhole) (arg5 : Memref sig .tc .vmem S1x1x4096 .f32) (harg5 : arg5.IsWhole)
    (hc1 : ¬ k0_cond1 i = 1#1) (hc2 : k0_cond2 i = 1#1)
    (x0 : Vec F S1x1024x3 .f32) (x1 : Vec F S1x4096x3 .f32) (xo3 : Vec F S1x1x4096 .f32) :
    Σ' (L2 : List (View.Piece (Elt F) S1x1024x1 .f32)), { L3 : List (View.Piece (Elt F) S1x1x4096 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xo3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__chamfer_kernel i arg2 harg2 arg3 harg3 arg4 harg4 arg5 harg5) K } := by
  refine ⟨?_, ?_, fun E K => ?run⟩
  case run =>
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Hand

end
-- ==== Proof.KI.Body.lean ====
/-
  The frame of the kernel launch, from the two runs of its body. After the body at a point the row-minima buffer
  holds the stores of that point; the column-minima buffer holds, at the first tile of a batch, that tile's stores, and
  at a later tile the stores of the run that started from what the tile before left — a recursion on the point, since
  the window is written back only after the last tile of a batch. With these as the proof data every point's
  obligation is one of the two runs, and the launch theorem gives the run of the whole program: it terminates, faults
  nowhere, and leaves the argument arrays as they were.
-/
import proofs.«138694_j11665131176430_1_alg».proof.Proof.KI.RunFirst
import proofs.«138694_j11665131176430_1_alg».proof.Proof.KI.RunLater
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stores of each run cover the block they are made into -/

theorem cover_first_rows (c : Dev nD) (i : grid0.Coords) (arg2 : Memref sig .tc .vmem S1x1024x3 .f32) (harg2 : arg2.IsWhole) (arg3 : Memref sig .tc .vmem S1x4096x3 .f32) (harg3 : arg3.IsWhole) (arg4 : Memref sig .tc .vmem S1x1024x1 .f32) (harg4 : arg4.IsWhole) (arg5 : Memref sig .tc .vmem S1x1x4096 .f32) (harg5 : arg5.IsWhole)
    (hc1 : k0_cond1 i = 1#1) (hc2 : ¬ k0_cond2 i = 1#1) (x0 : Vec F S1x1024x3 .f32) (x1 : Vec F S1x4096x3 .f32) (y : S1x1024x1.Idx) :
    ∃ pc ∈ (runFirst c i arg2 harg2 arg3 harg3 arg4 harg4 arg5 harg5 hc1 hc2 x0 x1).1, y ∈ pc.1.set :=
  View.cover_of_tiledL (runFirst c i arg2 harg2 arg3 harg3 arg4 harg4 arg5 harg5 hc1 hc2 x0 x1).1 S1x1024x1.size (by sl_kernel_rfl) y

theorem cover_first_cols (c : Dev nD) (i : grid0.Coords) (arg2 : Memref sig .tc .vmem S1x1024x3 .f32) (harg2 : arg2.IsWhole) (arg3 : Memref sig .tc .vmem S1x4096x3 .f32) (harg3 : arg3.IsWhole) (arg4 : Memref sig .tc .vmem S1x1024x1 .f32) (harg4 : arg4.IsWhole) (arg5 : Memref sig .tc .vmem S1x1x4096 .f32) (harg5 : arg5.IsWhole)
    (hc1 : k0_cond1 i = 1#1) (hc2 : ¬ k0_cond2 i = 1#1) (x0 : Vec F S1x1024x3 .f32) (x1 : Vec F S1x4096x3 .f32) (y : S1x1x4096.Idx) :
    ∃ pc ∈ (runFirst c i arg2 harg2 arg3 harg3 arg4 harg4 arg5 harg5 hc1 hc2 x0 x1).2.1, y ∈ pc.1.set :=
  View.cover_of_tiledL (runFirst c i arg2 harg2 arg3 harg3 arg4 harg4 arg5 harg5 hc1 hc2 x0 x1).2.1 S1x1x4096.size (by sl_kernel_rfl) y

theorem cover_later_rows (c : Dev nD) (i : grid0.Coords) (arg2 : Memref sig .tc .vmem S1x1024x3 .f32) (harg2 : arg2.IsWhole) (arg3 : Memref sig .tc .vmem S1x4096x3 .f32) (harg3 : arg3.IsWhole) (arg4 : Memref sig .tc .vmem S1x1024x1 .f32) (harg4 : arg4.IsWhole) (arg5 : Memref sig .tc .vmem S1x1x4096 .f32) (harg5 : arg5.IsWhole)
    (hc1 : ¬ k0_cond1 i = 1#1) (hc2 : k0_cond2 i = 1#1) (x0 : Vec F S1x1024x3 .f32) (x1 : Vec F S1x4096x3 .f32) (xo3 : Vec F S1x1x4096 .f32) (y : S1x1024x1.Idx) :
    ∃ pc ∈ (runLater c i arg2 harg2 arg3 harg3 arg4 harg4 arg5 harg5 hc1 hc2 x0 x1 xo3).1, y ∈ pc.1.set :=
  View.cover_of_tiledL (runLater c i arg2 harg2 arg3 harg3 arg4 harg4 arg5 harg5 hc1 hc2 x0 x1 xo3).1 S1x1024x1.size (by sl_kernel_rfl) y

theorem cover_later_cols (c : Dev nD) (i : grid0.Coords) (arg2 : Memref sig .tc .vmem S1x1024x3 .f32) (harg2 : arg2.IsWhole) (arg3 : Memref sig .tc .vmem S1x4096x3 .f32) (harg3 : arg3.IsWhole) (arg4 : Memref sig .tc .vmem S1x1024x1 .f32) (harg4 : arg4.IsWhole) (arg5 : Memref sig .tc .vmem S1x1x4096 .f32) (harg5 : arg5.IsWhole)
    (hc1 : ¬ k0_cond1 i = 1#1) (hc2 : k0_cond2 i = 1#1) (x0 : Vec F S1x1024x3 .f32) (x1 : Vec F S1x4096x3 .f32) (xo3 : Vec F S1x1x4096 .f32) (y : S1x1x4096.Idx) :
    ∃ pc ∈ (runLater c i arg2 harg2 arg3 harg3 arg4 harg4 arg5 harg5 hc1 hc2 x0 x1 xo3).2.1, y ∈ pc.1.set :=
  View.cover_of_tiledL (runLater c i arg2 harg2 arg3 harg3 arg4 harg4 arg5 harg5 hc1 hc2 x0 x1 xo3).2.1 S1x1x4096.size (by sl_kernel_rfl) y

/-! ## What each run leaves in the two output buffers -/

def rowsFirst (c : Dev nD) (i : grid0.Coords) (arg2 : Memref sig .tc .vmem S1x1024x3 .f32) (harg2 : arg2.IsWhole) (arg3 : Memref sig .tc .vmem S1x4096x3 .f32) (harg3 : arg3.IsWhole) (arg4 : Memref sig .tc .vmem S1x1024x1 .f32) (harg4 : arg4.IsWhole) (arg5 : Memref sig .tc .vmem S1x1x4096 .f32) (harg5 : arg5.IsWhole)
    (hc1 : k0_cond1 i = 1#1) (hc2 : ¬ k0_cond2 i = 1#1) (x0 : Vec F S1x1024x3 .f32) (x1 : Vec F S1x4096x3 .f32) : Vec F S1x1024x1 .f32 :=
  VO2.read (Elt F) (VO2.writes (Elt F) VO2.junk (runFirst c i arg2 harg2 arg3 harg3 arg4 harg4 arg5 harg5 hc1 hc2 x0 x1).1)

def colsFirst (c : Dev nD) (i : grid0.Coords) (arg2 : Memref sig .tc .vmem S1x1024x3 .f32) (harg2 : arg2.IsWhole) (arg3 : Memref sig .tc .vmem S1x4096x3 .f32) (harg3 : arg3.IsWhole) (arg4 : Memref sig .tc .vmem S1x1024x1 .f32) (harg4 : arg4.IsWhole) (arg5 : Memref sig .tc .vmem S1x1x4096 .f32) (harg5 : arg5.IsWhole)
    (hc1 : k0_cond1 i = 1#1) (hc2 : ¬ k0_cond2 i = 1#1) (x0 : Vec F S1x1024x3 .f32) (x1 : Vec F S1x4096x3 .f32) : Vec F S1x1x4096 .f32 :=
  VO3.read (Elt F) (VO3.writes (Elt F) VO3.junk (runFirst c i arg2 harg2 arg3 harg3 arg4 harg4 arg5 harg5 hc1 hc2 x0 x1).2.1)

def rowsLater (c : Dev nD) (i : grid0.Coords) (arg2 : Memref sig .tc .vmem S1x1024x3 .f32) (harg2 : arg2.IsWhole) (arg3 : Memref sig .tc .vmem S1x4096x3 .f32) (harg3 : arg3.IsWhole) (arg4 : Memref sig .tc .vmem S1x1024x1 .f32) (harg4 : arg4.IsWhole) (arg5 : Memref sig .tc .vmem S1x1x4096 .f32) (harg5 : arg5.IsWhole)
    (hc1 : ¬ k0_cond1 i = 1#1) (hc2 : k0_cond2 i = 1#1) (x0 : Vec F S1x1024x3 .f32) (x1 : Vec F S1x4096x3 .f32) (xo3 : Vec F S1x1x4096 .f32) : Vec F S1x1024x1 .f32 :=
  VO2.read (Elt F) (VO2.writes (Elt F) VO2.junk (runLater c i arg2 harg2 arg3 harg3 arg4 harg4 arg5 harg5 hc1 hc2 x0 x1 xo3).1)

def colsLater (c : Dev nD) (i : grid0.Coords) (arg2 : Memref sig .tc .vmem S1x1024x3 .f32) (harg2 : arg2.IsWhole) (arg3 : Memref sig .tc .vmem S1x4096x3 .f32) (harg3 : arg3.IsWhole) (arg4 : Memref sig .tc .vmem S1x1024x1 .f32) (harg4 : arg4.IsWhole) (arg5 : Memref sig .tc .vmem S1x1x4096 .f32) (harg5 : arg5.IsWhole)
    (hc1 : ¬ k0_cond1 i = 1#1) (hc2 : k0_cond2 i = 1#1) (x0 : Vec F S1x1024x3 .f32) (x1 : Vec F S1x4096x3 .f32) (xo3 : Vec F S1x1x4096 .f32) : Vec F S1x1x4096 .f32 :=
  VO3.read (Elt F) (VO3.writes (Elt F) VO3.junk (runLater c i arg2 harg2 arg3 harg3 arg4 harg4 arg5 harg5 hc1 hc2 x0 x1 xo3).2.1)

/-! ## Point by point -/

/-- What the column-minima buffer holds after the body at position `n`: the reset at the first tile of a batch, the
    combination with what position `n - 1` left at a later one. -/
def colsAt (c : Dev nD) : (n : ℕ) → n < cfg0.N → Vec F S1x1x4096 .f32
  | 0, hn => colsFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((first_iff ⟨0, hn⟩).mpr (Nat.zero_mod _)) (fun h => (later_iff ⟨0, hn⟩).mp h (Nat.zero_mod _)) (iblk m c 0 ⟨0, hn⟩) (iblk m c 1 ⟨0, hn⟩)
  | n + 1, hn =>
    if h0 : (n + 1) % 4 = 0 then
      colsFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((first_iff ⟨n + 1, hn⟩).mpr h0) (fun h => (later_iff ⟨n + 1, hn⟩).mp h h0) (iblk m c 0 ⟨n + 1, hn⟩) (iblk m c 1 ⟨n + 1, hn⟩)
    else
      colsLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((first_iff ⟨n + 1, hn⟩).mp h)) ((later_iff ⟨n + 1, hn⟩).mpr h0) (iblk m c 0 ⟨n + 1, hn⟩) (iblk m c 1 ⟨n + 1, hn⟩) (colsAt c n (Nat.lt_of_succ_lt hn))

/-- What the row-minima buffer holds after the body at point `t`. -/
def rowsAt (c : Dev nD) (t : Fin cfg0.N) : Vec F S1x1024x1 .f32 :=
  if h0 : t.val % 4 = 0 then
    rowsFirst c (grid0.coords t) (ms0 t) (hs0 t) (ms1 t) (hs1 t) (ms2 t) (hs2 t) (ms3 t) (hs3 t) ((first_iff t).mpr h0) (fun h => (later_iff t).mp h h0) (iblk m c 0 t) (iblk m c 1 t)
  else
    rowsLater c (grid0.coords t) (ms0 t) (hs0 t) (ms1 t) (hs1 t) (ms2 t) (hs2 t) (ms3 t) (hs3 t) (fun h => h0 ((first_iff t).mp h)) ((later_iff t).mpr h0) (iblk m c 0 t) (iblk m c 1 t)
      (colsAt m c (t.val - 1) (Nat.lt_of_le_of_lt (Nat.sub_le _ _) t.isLt))

theorem colsAt_first (c : Dev nD) (t : Fin cfg0.N) (h0 : t.val % 4 = 0) :
    colsAt m c t.val t.isLt = colsFirst c (grid0.coords t) (ms0 t) (hs0 t) (ms1 t) (hs1 t) (ms2 t) (hs2 t) (ms3 t) (hs3 t) ((first_iff t).mpr h0) (fun h => (later_iff t).mp h h0) (iblk m c 0 t) (iblk m c 1 t) := by
  obtain ⟨n, hn⟩ := t
  cases n with
  | zero => exact rfl
  | succ n => exact (dif_pos h0).trans rfl

theorem colsAt_later (c : Dev nD) (t : Fin cfg0.N) (h0 : ¬ t.val % 4 = 0) :
    colsAt m c t.val t.isLt = colsLater c (grid0.coords t) (ms0 t) (hs0 t) (ms1 t) (hs1 t) (ms2 t) (hs2 t) (ms3 t) (hs3 t) (fun h => h0 ((first_iff t).mp h)) ((later_iff t).mpr h0) (iblk m c 0 t) (iblk m c 1 t)
      (colsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

theorem rowsAt_first (c : Dev nD) (t : Fin cfg0.N) (h0 : t.val % 4 = 0) :
    rowsAt m c t = rowsFirst c (grid0.coords t) (ms0 t) (hs0 t) (ms1 t) (hs1 t) (ms2 t) (hs2 t) (ms3 t) (hs3 t) ((first_iff t).mpr h0) (fun h => (later_iff t).mp h h0) (iblk m c 0 t) (iblk m c 1 t) := dif_pos h0

theorem rowsAt_later (c : Dev nD) (t : Fin cfg0.N) (h0 : ¬ t.val % 4 = 0) :
    rowsAt m c t = rowsLater c (grid0.coords t) (ms0 t) (hs0 t) (ms1 t) (hs1 t) (ms2 t) (hs2 t) (ms3 t) (hs3 t) (fun h => h0 ((first_iff t).mp h)) ((later_iff t).mpr h0) (iblk m c 0 t) (iblk m c 1 t)
      (colsAt m c (t.val - 1) (Nat.lt_of_le_of_lt (Nat.sub_le _ _) t.isLt)) := dif_neg h0

/-! ## The proof data -/

/-- On core `c`: the arrays as the launch finds them; after the body at point `t` each input's buffer at its block, the
    row-minima buffer at `rowsAt`, the column-minima buffer at `colsAt`; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => rowsAt m c t
    | ⟨3, _⟩ => colsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = rowsAt m c t := by dsimp only [dats]
theorem after3 (c : Dev nD) (t : Fin cfg0.N) : (dats m 0 c).after 3 t = colsAt m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At a later tile of a batch the column-minima buffer holds what the body left at the point before: the window is
    written back only after the last tile of a batch, and it is idle nowhere. -/
theorem before3_later (c : Dev nD) (t : Fin cfg0.N) (h0 : ¬ t.val % 4 = 0) (d) :
    (dats m 0 c).before 3 t d = colsAt m c (t.val - 1) (Nat.lt_of_le_of_lt (Nat.sub_le _ _) t.isLt) := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    live3' (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point: the inputs' memrefs hold their blocks; the point is a first tile or a later one; at a later
    one the column-minima buffer holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  by_cases h0 : t.val % 4 = 0
  · rw [colsAt_first m c t h0, rowsAt_first m c t h0]
    unfold rowsFirst colsFirst
    iintro ⟨HΦ, Ho, ⟨%d0, H0⟩, ⟨%d1, H1⟩, ⟨%d2, H2⟩, ⟨%d3, H3⟩⟩
    iapply ((runFirst c (grid0.coords t) _ _ _ _ _ _ _ _ ((first_iff t).mpr h0) (fun h => (later_iff t).mp h h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover_first_rows c _ _ _ _ _ _ _ _ _ _ _ _ _)
    unfold owns; iexists _; isplitr
    swap; · iexact H3
    ipureintro; exact View.read_writes_of_cover _ _ _ _ _ (cover_first_cols c _ _ _ _ _ _ _ _ _ _ _ _ _)
  · rw [colsAt_later m c t h0, rowsAt_later m c t h0]
    simp only [before3_later m c t h0]
    unfold rowsLater colsLater
    iintro ⟨HΦ, Ho, ⟨%d0, H0⟩, ⟨%d1, H1⟩, ⟨%d2, H2⟩, ⟨%d3, H3⟩⟩
    iapply ((runLater c (grid0.coords t) _ _ _ _ _ _ _ _ (fun h => h0 ((first_iff t).mp h)) ((later_iff t).mpr h0) (iblk m c 0 t) (iblk m c 1 t) _).2.2 Set.univ _)
    isplitl [H0]; · iexact H0
    isplitl [H1]; · iexact H1
    isplitl [H2]; · iexists _; iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover_later_rows c _ _ _ _ _ _ _ _ _ _ _ _ _ _)
    unfold owns; iexists _; isplitr
    swap; · iexact H3
    ipureintro; exact View.read_writes_of_cover _ _ _ _ _ (cover_later_cols c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0, live3' (cfg0.grid.coords t)]
  exact sound_body m c t

/-! ## The run and the frame -/

set_option backward.isDefEq.respectTransparency.types false in
/-- Every weakly fair execution of the program terminates, and every final state has every array of the launch at what
    the proof data computes and every other buffer as the host lines after the launch leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.KI.Pieces.lean ====
/-
  What each run of the body leaves in the two output buffers, as the body's arithmetic: every store is a store of a
  whole block, so the buffer ends holding the stored value. The row-minima buffer gets the rows' minima of the tile of
  squared distances computed from the two loaded blocks; the column-minima buffer gets, at a first tile, that tile's
  column minima, and at a later tile their minimum with what the buffer held.
-/
import proofs.«138694_j11665131176430_1_alg».proof.Proof.KI.Body
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem origin3 : (![0, 0, 0] : Fin 3 → Nat) = fun _ => 0 := funext fun a => by fin_cases a <;> rfl

theorem rowsFirst_eq (c : Dev nD) (i : grid0.Coords) (arg2 : Memref sig .tc .vmem S1x1024x3 .f32) (harg2 : arg2.IsWhole) (arg3 : Memref sig .tc .vmem S1x4096x3 .f32) (harg3 : arg3.IsWhole) (arg4 : Memref sig .tc .vmem S1x1024x1 .f32) (harg4 : arg4.IsWhole) (arg5 : Memref sig .tc .vmem S1x1x4096 .f32) (harg5 : arg5.IsWhole)
    (hc1 : k0_cond1 i = 1#1) (hc2 : ¬ k0_cond2 i = 1#1) (x0 : Vec F S1x1024x3 .f32) (x1 : Vec F S1x4096x3 .f32) :
    rowsFirst c i arg2 harg2 arg3 harg3 arg4 harg4 arg5 harg5 hc1 hc2 x0 x1 = k0_pay5 x0 x1 := by
  unfold rowsFirst
  rw [View.read_writes_eq_canon _ _ _ (cover_first_rows c i arg2 harg2 arg3 harg3 arg4 harg4 arg5 harg5 hc1 hc2 x0 x1)]
  unfold runFirst
  dsimp only
  sl_unfold_words
  rw [View.canon_unit_zero origin3]
  simp only [View.readAt_eq_ld, harg2.read_unread, harg3.read_unread, View.ld_unit_zero (S := S1x1024x3) origin3,
    View.ld_unit_zero (S := S1x4096x3) origin3]

theorem colsFirst_eq (c : Dev nD) (i : grid0.Coords) (arg2 : Memref sig .tc .vmem S1x1024x3 .f32) (harg2 : arg2.IsWhole) (arg3 : Memref sig .tc .vmem S1x4096x3 .f32) (harg3 : arg3.IsWhole) (arg4 : Memref sig .tc .vmem S1x1024x1 .f32) (harg4 : arg4.IsWhole) (arg5 : Memref sig .tc .vmem S1x1x4096 .f32) (harg5 : arg5.IsWhole)
    (hc1 : k0_cond1 i = 1#1) (hc2 : ¬ k0_cond2 i = 1#1) (x0 : Vec F S1x1024x3 .f32) (x1 : Vec F S1x4096x3 .f32) :
    colsFirst c i arg2 harg2 arg3 harg3 arg4 harg4 arg5 harg5 hc1 hc2 x0 x1 = k0_pay2 (k0_pay4 x0 x1) := by
  unfold colsFirst
  rw [View.read_writes_eq_canon _ _ _ (cover_first_cols c i arg2 harg2 arg3 harg3 arg4 harg4 arg5 harg5 hc1 hc2 x0 x1)]
  unfold runFirst
  dsimp only
  sl_unfold_words
  rw [View.canon_unit_zero origin3]
  simp only [View.readAt_eq_ld, harg2.read_unread, harg3.read_unread, View.ld_unit_zero (S := S1x1024x3) origin3,
    View.ld_unit_zero (S := S1x4096x3) origin3]

theorem rowsLater_eq (c : Dev nD) (i : grid0.Coords) (arg2 : Memref sig .tc .vmem S1x1024x3 .f32) (harg2 : arg2.IsWhole) (arg3 : Memref sig .tc .vmem S1x4096x3 .f32) (harg3 : arg3.IsWhole) (arg4 : Memref sig .tc .vmem S1x1024x1 .f32) (harg4 : arg4.IsWhole) (arg5 : Memref sig .tc .vmem S1x1x4096 .f32) (harg5 : arg5.IsWhole)
    (hc1 : ¬ k0_cond1 i = 1#1) (hc2 : k0_cond2 i = 1#1) (x0 : Vec F S1x1024x3 .f32) (x1 : Vec F S1x4096x3 .f32) (xo3 : Vec F S1x1x4096 .f32) :
    rowsLater c i arg2 harg2 arg3 harg3 arg4 harg4 arg5 harg5 hc1 hc2 x0 x1 xo3 = k0_pay5 x0 x1 := by
  unfold rowsLater
  rw [View.read_writes_eq_canon _ _ _ (cover_later_rows c i arg2 harg2 arg3 harg3 arg4 harg4 arg5 harg5 hc1 hc2 x0 x1 xo3)]
  unfold runLater
  dsimp only
  sl_unfold_words
  rw [View.canon_unit_zero origin3]
  simp only [View.readAt_eq_ld, harg2.read_unread, harg3.read_unread, View.ld_unit_zero (S := S1x1024x3) origin3,
    View.ld_unit_zero (S := S1x4096x3) origin3]

theorem colsLater_eq (c : Dev nD) (i : grid0.Coords) (arg2 : Memref sig .tc .vmem S1x1024x3 .f32) (harg2 : arg2.IsWhole) (arg3 : Memref sig .tc .vmem S1x4096x3 .f32) (harg3 : arg3.IsWhole) (arg4 : Memref sig .tc .vmem S1x1024x1 .f32) (harg4 : arg4.IsWhole) (arg5 : Memref sig .tc .vmem S1x1x4096 .f32) (harg5 : arg5.IsWhole)
    (hc1 : ¬ k0_cond1 i = 1#1) (hc2 : k0_cond2 i = 1#1) (x0 : Vec F S1x1024x3 .f32) (x1 : Vec F S1x4096x3 .f32) (xo3 : Vec F S1x1x4096 .f32) :
    colsLater c i arg2 harg2 arg3 harg3 arg4 harg4 arg5 harg5 hc1 hc2 x0 x1 xo3 = k0_pay3 (k0_pay4 x0 x1) xo3 := by
  unfold colsLater
  rw [View.read_writes_eq_canon _ _ _ (cover_later_cols c i arg2 harg2 arg3 harg3 arg4 harg4 arg5 harg5 hc1 hc2 x0 x1 xo3)]
  unfold runLater
  dsimp only
  sl_unfold_words
  rw [View.canon_unit_zero origin3]
  simp only [View.readAt_eq_ld, harg2.read_unread, harg3.read_unread, harg5.read_unread, View.ld_unit_zero (S := S1x1024x3) origin3,
    View.ld_unit_zero (S := S1x4096x3) origin3, View.ld_unit_zero (S := S1x1x4096) origin3]

end Cert.KernelIdeal.Hand

end
-- ==== Proof.Spec.lean ====
/-
  The Chamfer loss between two batches of point clouds, as ONE function of the two arrays over the extended reals.
  For a batch `b`, a ground-truth point `i` and a predicted point `j` (each a row of three coordinates) the squared
  distance is written the way both programs compute it, `(|g_i|² + |p_j|²) - 2 · ⟨g_i, p_j⟩`, the squared norms and the
  inner product each a sum over the three coordinates. Every predicted point takes its nearest ground-truth point
  (the infimum over `i`), every ground-truth point its nearest predicted point (the infimum over `j`); the loss is
  the mean of the first over the 16 · 4096 predicted points plus the mean of the second over the ground-truth points.
  The same distance is also stated for ONE TILE: 1024 ground-truth rows against all 4096 predicted rows of a batch,
  which is what one grid point of the kernel sees.
-/
import Idealize.ShloMosaic.Lib.ValueIdx
import Idealize.ShloMosaic.PureOps.Ideal

noncomputable section

open scoped BigOperators

namespace Cert.Chamfer

open Idealize.ShloMosaic Idealize.ShloMosaic.ValueIdx

/-- A batch of 16 clouds of 4096 points in 3-space. -/
abbrev Cloud : Type := (⟨3, ![16, 4096, 3]⟩ : Shape).Idx → EReal
/-- 1024 consecutive points of one cloud. -/
abbrev RowTile : Type := (⟨3, ![1, 1024, 3]⟩ : Shape).Idx → EReal
/-- One whole cloud. -/
abbrev OneCloud : Type := (⟨3, ![1, 4096, 3]⟩ : Shape).Idx → EReal

/-- The float literal `2.0`. -/
def two : EReal := Ideal.ofBits .f32 0x40000000#32
/-- The float literal `65536.0`, the number of points in a batch of clouds. -/
def count : EReal := Ideal.ofBits .f32 0x47800000#32

/-- `|x_i|²` in batch `b`. -/
def sqNorm (x : Cloud) (b : Fin 16) (i : Fin 4096) : EReal := ∑ k : Fin 3, x (ix3 b i k) * x (ix3 b i k)
/-- `⟨g_i, p_j⟩` in batch `b`. -/
def inner (g p : Cloud) (b : Fin 16) (i j : Fin 4096) : EReal := ∑ k : Fin 3, g (ix3 b i k) * p (ix3 b j k)
/-- The squared distance from ground-truth point `i` to predicted point `j` in batch `b`. -/
def sqDist (g p : Cloud) (b : Fin 16) (i j : Fin 4096) : EReal :=
  (sqNorm g b i + sqNorm p b j) - two * inner g p b i j
/-- For ground-truth point `i`: the squared distance to its nearest predicted point. -/
def nearestPred (g p : Cloud) (b : Fin 16) (i : Fin 4096) : EReal := Finset.univ.inf fun j : Fin 4096 => sqDist g p b i j
/-- For predicted point `j`: the squared distance to its nearest ground-truth point. -/
def nearestGt (g p : Cloud) (b : Fin 16) (j : Fin 4096) : EReal := Finset.univ.inf fun i : Fin 4096 => sqDist g p b i j
/-- The mean of 65536 numbers, from their sum: the sum is taken from the initial value `0`, then divided. -/
def mean (s : EReal) : EReal := Ideal.div (0 + s) count
/-- The Chamfer loss of ground truth `g` and prediction `p`. -/
def loss (g p : Cloud) : EReal :=
  mean (∑ b : Fin 16, ∑ j : Fin 4096, nearestGt g p b j) + mean (∑ b : Fin 16, ∑ i : Fin 4096, nearestPred g p b i)

/-- The squared distance from row `r` of a tile of ground-truth points to point `j` of a cloud. -/
def tileDist (x0 : RowTile) (x1 : OneCloud) (r : Fin 1024) (j : Fin 4096) : EReal :=
  ((∑ k : Fin 3, x0 (ix3 0 r k) * x0 (ix3 0 r k)) + ∑ k : Fin 3, x1 (ix3 0 j k) * x1 (ix3 0 j k))
    - two * ∑ k : Fin 3, x0 (ix3 0 r k) * x1 (ix3 0 j k)
/-- For row `r` of the tile: the squared distance to its nearest point of the cloud. -/
def tileRowMin (x0 : RowTile) (x1 : OneCloud) (r : Fin 1024) : EReal := Finset.univ.inf fun j : Fin 4096 => tileDist x0 x1 r j
/-- For point `j` of the cloud: the squared distance to its nearest row of the tile. -/
def tileColMin (x0 : RowTile) (x1 : OneCloud) (j : Fin 4096) : EReal := Finset.univ.inf fun r : Fin 1024 => tileDist x0 x1 r j

end Cert.Chamfer

end
-- ==== Proof.KI.Blocks.lean ====
/-
  Point `t` of the grid is row tile `t % 4` of batch `t / 4`. Its block of the ground-truth array is rows
  `(t % 4) · 1024 …` of batch `t / 4`, its block of the predicted array all of batch `t / 4`; so the tile's squared
  distance from its row `r` to point `j` is the whole arrays' squared distance from row `(t % 4) · 1024 + r` to `j`
  in that batch, and so are the rows' and columns' minima.
-/
import proofs.«138694_j11665131176430_1_alg».proof.Proof.KI.Body
import proofs.«138694_j11665131176430_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Chamfer
open scoped BigOperators

variable (m : (ℓ : Loc nD τ sig) → Buf (Elt Ideal) ℓ) (ρ : Dev nD → PrngReg)

/-- The four index maps, decided over the grid. -/
theorem index_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = t.val % 4 ∧ win0_2.index t (2 : Fin 3) = 0
    ∧ win0_3.index t (0 : Fin 3) = t.val / 4 ∧ win0_3.index t (1 : Fin 3) = 0 ∧ win0_3.index t (2 : Fin 3) = 0 :=
  (by decide +kernel : ∀ t : Fin grid0.N, _)

theorem N64 (t : Fin cfg0.N) : t.val < 64 := lt_of_lt_of_eq t.isLt (show cfg0.N = 64 from N_0)

/-- The batch of point `t`. -/
def batch (t : Fin cfg0.N) : Fin 16 := ⟨t.val / 4, by have := N64 t; omega⟩
/-- Row `r` of point `t`'s tile, as a row of the cloud. -/
def row (t : Fin cfg0.N) (r : Fin 1024) : Fin 4096 := ⟨t.val % 4 * 1024 + r.val, by have := r.isLt; omega⟩

/-- The ground truth and the prediction, as the launch finds them on core `c`. -/
abbrev gt (c : Dev nD) : Cloud := m ((c : Thread nD τ).loc main_arg1)
abbrev pr (c : Dev nD) : Cloud := m ((c : Thread nD τ).loc main_arg0)

/-- The ground-truth block of point `t` is rows `(t % 4) · 1024 …` of batch `t / 4`. -/
theorem gtBlock_apply (c : Dev nD) (t : Fin cfg0.N) (u : Fin 1) (r : Fin 1024) (k : Fin 3) :
    (iblk m c 0 t : Vec Ideal S1x1024x3 .f32) (ix3 u r k) = gt m c (ix3 (batch t) (row t r) k) := by
  show V m c main_arg1 (((cfg0.win 0).blk t).view.emb (ix3 u r k)) = _
  rw [V_main_arg1]
  refine congrArg (m ((c : Thread nD τ).loc main_arg1)) ?_
  obtain ⟨e0, e1, e2, -⟩ := index_facts t
  funext a; apply Fin.ext
  match a with
  | ⟨0, _⟩ => show win0_0.index t (0 : Fin 3) * 1 + 1 * u.val = t.val / 4; omega
  | ⟨1, _⟩ => show win0_0.index t (1 : Fin 3) * 1024 + 1 * r.val = t.val % 4 * 1024 + r.val; omega
  | ⟨2, _⟩ => show win0_0.index t (2 : Fin 3) * 3 + 1 * k.val = k.val; omega

/-- The predicted block of point `t` is all of batch `t / 4`. -/
theorem prBlock_apply (c : Dev nD) (t : Fin cfg0.N) (u : Fin 1) (j : Fin 4096) (k : Fin 3) :
    (iblk m c 1 t : Vec Ideal S1x4096x3 .f32) (ix3 u j k) = pr m c (ix3 (batch t) j k) := by
  show V m c main_arg0 (((cfg0.win 1).blk t).view.emb (ix3 u j k)) = _
  rw [V_main_arg0]
  refine congrArg (m ((c : Thread nD τ).loc main_arg0)) ?_
  obtain ⟨-, -, -, e0, e1, e2, -⟩ := index_facts t
  funext a; apply Fin.ext
  match a with
  | ⟨0, _⟩ => show win0_1.index t (0 : Fin 3) * 1 + 1 * u.val = t.val / 4; omega
  | ⟨1, _⟩ => show win0_1.index t (1 : Fin 3) * 4096 + 1 * j.val = j.val; omega
  | ⟨2, _⟩ => show win0_1.index t (2 : Fin 3) * 3 + 1 * k.val = k.val; omega

/-- The tile's distance is the arrays' distance. -/
theorem tileDist_block (c : Dev nD) (t : Fin cfg0.N) (r : Fin 1024) (j : Fin 4096) :
    tileDist (iblk m c 0 t : Vec Ideal S1x1024x3 .f32) (iblk m c 1 t : Vec Ideal S1x4096x3 .f32) r j
      = sqDist (gt m c) (pr m c) (batch t) (row t r) j := by
  unfold tileDist sqDist sqNorm Chamfer.inner
  simp only [gtBlock_apply, prBlock_apply]

/-- The tile's row minimum is the nearest predicted point of that ground-truth row. -/
theorem tileRowMin_block (c : Dev nD) (t : Fin cfg0.N) (r : Fin 1024) :
    tileRowMin (iblk m c 0 t : Vec Ideal S1x1024x3 .f32) (iblk m c 1 t : Vec Ideal S1x4096x3 .f32) r
      = nearestPred (gt m c) (pr m c) (batch t) (row t r) := by
  unfold tileRowMin nearestPred
  simp only [tileDist_block]

/-- The tile's column minimum is the infimum over the tile's rows of the arrays' distance. -/
theorem tileColMin_block (c : Dev nD) (t : Fin cfg0.N) (j : Fin 4096) :
    tileColMin (iblk m c 0 t : Vec Ideal S1x1024x3 .f32) (iblk m c 1 t : Vec Ideal S1x4096x3 .f32) j
      = Finset.univ.inf fun r : Fin 1024 => sqDist (gt m c) (pr m c) (batch t) (row t r) j := by
  unfold tileColMin
  simp only [tileDist_block]

end Cert.KernelIdeal.Hand

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.LibTileLayout.lean ====
/-
  Readings, at an index written by its coordinates, of the operations that turn a matrix `[a, b]` of pairwise
  values into its row minima and its column minima, and of one more keepdims cast:
  • a column `[a, 1]` cast to the vector `[a]` reads, at `i`, the column at `(i, u)` (the unit coordinate `u` is
    whatever the caller writes: there is only one);
  • the f32 word `0x7F800000` denotes `⊤` on the extended reals, the value a minimum starts from;
  • a minimum reduction over the LAST axis of a matrix, started from a word that denotes `⊤`, read at row `p`, is the
    infimum of that row's `b` entries; over the FIRST axis, read at column `c`, the infimum of that column's `a`
    entries. The reduction folds `min` over the entries in some order; `min` commutes and associates, so the fold
    is the fold over the finite set of the reduced coordinate, which from `⊤` is that set's infimum;
  • the factors of a tile of pairwise products: for `v : [a, n]` and `w : [b, n]`, column `d` of `v` spread along the
    rows of `[a, b]` reads `v (p, d)` at `(p, c)`, column `d` of `w` turned into a row and spread along the columns
    reads `w (c, d)`; and a last-axis sum of `[a, n]` spread the first way reads the sum of row `p`, a last-axis sum
    of `[b, n]` spread the second way the sum of row `c`.
-/
import Idealize.ShloMosaic.Lib.ValueLayout
import Idealize.ShloMosaic.PureOps.Ideal.Laws
import proofs.«138694_j11665131176430_1_alg».proof.Proof.LibKeepdims

open scoped BigOperators

namespace Cert.LibTileLayout

open Idealize.ShloMosaic Idealize.ShloMosaic.ValueIdx

variable {α : Type}

/-- A column `[a, 1]` cast to the vector `[a]` reads, at `i`, the column at `(i, u)`: both indices sit at row-major
    position `i`. -/
theorem shapeCast_a1_a_apply {a : ℕ} (x : (⟨2, ![a, 1]⟩ : Shape).Idx → α) (h : (⟨2, ![a, 1]⟩ : Shape).ShapeCasts ⟨1, ![a]⟩)
    (i : Fin a) (u : Fin 1) : shapeCast ⟨1, ![a]⟩ x h (ix1 i) = x (ix2 i u) :=
  shapeCast_apply x h _ _ (by
    have hu : u.val = 0 := by omega
    rw [Shape.rowMajor_val_two, Shape.rowMajor_val_one]
    show i.val * 1 + u.val = i.val
    rw [hu, Nat.mul_one, Nat.add_zero])

/-- The f32 word of `+∞` denotes `⊤`. -/
theorem ofBits_posInf_f32 : Ideal.ofBits .f32 0x7F800000#32 = ⊤ := by simp [Ideal.ofBits, Ideal.ieee]

/-- On the extended reals the fold of `min` from `⊤` over all of a finite type is the infimum over it. -/
theorem fold_min_top_eq_inf {ι : Type} [Fintype ι] (f : ι → EReal) :
    (Finset.univ : Finset ι).fold min (⊤ : EReal) f = Finset.univ.inf f := rfl

/-- At the ideal values a float `vector.multi_reduction <minimumf>` over the LAST axis of an `[a, b]` matrix, started
    from a word that denotes `⊤`, read at row `p`, is the infimum of that row's `b` entries. -/
theorem multiReduction_minimumf_lastAxis_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.minimumf.neutral .f32 hφ) (htop : Ideal.ofBits .f32 acc = ⊤) (p : Fin a) :
    multiReduction .minimumf [1] ⟨1, ![a]⟩ src acc h hφ hacc (ix1 p)
      = (Finset.univ.inf fun k : Fin b => src (ix2 p k) : EReal) := by
  refine (multiReduction_minimumf_eq_fold src acc h hφ hacc (ix1 p)).trans ?_
  refine (h.fold_filter_drop_single FloatOps.minimumf (FloatOps.ofBits .f32 acc) src (ix1 p)).trans ?_
  show (Finset.univ : Finset (Fin b)).fold min (Ideal.ofBits .f32 acc) (fun k => src (h.lift (ix1 p) k)) = _
  rw [htop]
  refine (fold_min_top_eq_inf _).trans (Finset.inf_congr rfl fun k _ => congrArg src ?_)
  funext ax; apply Fin.ext
  match ax with
  | ⟨0, _⟩ => rfl
  | ⟨1, _⟩ => rfl

/-- The same over the FIRST axis: read at column `c`, the infimum of that column's `a` entries. -/
theorem multiReduction_minimumf_firstAxis_apply {a b : ℕ} (src : FVec Ideal ⟨2, ![a, b]⟩ .f32) (acc : BitVec 32)
    (h : (⟨2, ![a, b]⟩ : Shape).Reduces [0] ⟨1, ![b]⟩) (hφ : FKind.Formats .f32)
    (hacc : acc = FKind.minimumf.neutral .f32 hφ) (htop : Ideal.ofBits .f32 acc = ⊤) (c : Fin b) :
    multiReduction .minimumf [0] ⟨1, ![b]⟩ src acc h hφ hacc (ix1 c)
      = (Finset.univ.inf fun r : Fin a => src (ix2 r c) : EReal) := by
  refine (multiReduction_minimumf_eq_fold src acc h hφ hacc (ix1 c)).trans ?_
  refine (h.fold_filter_drop_single FloatOps.minimumf (FloatOps.ofBits .f32 acc) src (ix1 c)).trans ?_
  show (Finset.univ : Finset (Fin a)).fold min (Ideal.ofBits .f32 acc) (fun r => src (h.lift (ix1 c) r)) = _
  rw [htop]
  refine (fold_min_top_eq_inf _).trans (Finset.inf_congr rfl fun r _ => congrArg src ?_)
  funext ax; apply Fin.ext
  match ax with
  | ⟨0, _⟩ => rfl
  | ⟨1, _⟩ => rfl

/-! ## A factor of a pairwise product, and a squared norm, spread over the tile

For two matrices of points, `v : [a, n]` (a row per point of the tile) and `w : [b, n]` (a row per point of the cloud), the
`[a, b]` tile of products of coordinate `d` is built from column `d` of `v` spread along the rows and column `d` of
`w`, turned into a row, spread along the columns; the squared norms likewise from a last-axis sum. -/

/-- Column `d` of `v : [a, n]`, cut out as `[a, 1]` and broadcast to `[a, b]`, reads at `(p, c)` the entry `v (p, d)`. -/
theorem broadcastTo_sliceCol_apply {a b n : ℕ} (d : ℕ) (v : (⟨2, ![a, n]⟩ : Shape).Idx → α)
    (hs : (⟨2, ![a, n]⟩ : Shape).Slices ![0, d] ⟨2, ![a, 1]⟩) (hb : (⟨2, ![a, 1]⟩ : Shape).Broadcasts ⟨2, ![a, b]⟩)
    (p : Fin a) (c : Fin b) (k : Fin n) (hk : k.val = d) :
    broadcastTo ⟨2, ![a, b]⟩ (extractStridedSlice ⟨2, ![a, 1]⟩ ![0, d] v hs) hb (ix2 p c) = v (ix2 p k) :=
  (Cert.LibKeepdims.broadcastTo_a1_ab_apply _ hb p c (0 : Fin 1)).trans
    (slice2_axis1_apply d v hs p (0 : Fin 1) k (by rw [hk]; rfl))

/-- Column `d` of `w : [b, n]`, cut out as `[b, 1]`, cast to the vector `[b]`, then to the row `[1, b]`, and broadcast to
    `[a, b]`, reads at `(p, c)` the entry `w (c, d)`. -/
theorem broadcastTo_sliceCol_row_apply {a b n : ℕ} (d : ℕ) (w : (⟨2, ![b, n]⟩ : Shape).Idx → α)
    (hs : (⟨2, ![b, n]⟩ : Shape).Slices ![0, d] ⟨2, ![b, 1]⟩) (hc1 : (⟨2, ![b, 1]⟩ : Shape).ShapeCasts ⟨1, ![b]⟩)
    (hc2 : (⟨1, ![b]⟩ : Shape).ShapeCasts ⟨2, ![1, b]⟩) (hb : (⟨2, ![1, b]⟩ : Shape).Broadcasts ⟨2, ![a, b]⟩)
    (p : Fin a) (c : Fin b) (k : Fin n) (hk : k.val = d) :
    broadcastTo ⟨2, ![a, b]⟩ (shapeCast ⟨2, ![1, b]⟩ (shapeCast ⟨1, ![b]⟩ (extractStridedSlice ⟨2, ![b, 1]⟩ ![0, d] w hs) hc1) hc2) hb
      (ix2 p c) = w (ix2 c k) :=
  (broadcastTo_1b_ab_apply _ hb p c).trans <|
    (shapeCast_a_1a_apply _ hc2 (0 : Fin 1) c).trans <|
      (shapeCast_a1_a_apply _ hc1 c (0 : Fin 1)).trans
        (slice2_axis1_apply d w hs c (0 : Fin 1) k (by rw [hk]; rfl))

/-- The last-axis sum of `m : [a, n]`, as the column `[a, 1]`, broadcast to `[a, b]`, reads at `(p, c)` the sum of row `p`. -/
theorem broadcastTo_rowSum_apply {a b n : ℕ} (m : FVec Ideal ⟨2, ![a, n]⟩ .f32) (acc : BitVec 32)
    (h : (⟨2, ![a, n]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ (multiReduction .add [1] ⟨1, ![a]⟩ m acc h hφ hacc) hc) hb (ix2 p c)
      = ∑ k : Fin n, m (ix2 p k) :=
  (Cert.LibKeepdims.broadcastTo_a1_ab_apply _ hb p c (0 : Fin 1)).trans <|
    (Cert.LibKeepdims.shapeCast_a_a1_apply _ hc p (0 : Fin 1)).trans
      (Cert.LibKeepdims.multiReduction_add_lastAxis_apply m acc h hφ hacc p)

/-- The last-axis sum of `m : [b, n]`, as the row `[1, b]`, broadcast to `[a, b]`, reads at `(p, c)` the sum of row `c`. -/
theorem broadcastTo_rowSum_row_apply {a b n : ℕ} (m : FVec Ideal ⟨2, ![b, n]⟩ .f32) (acc : BitVec 32)
    (h : (⟨2, ![b, n]⟩ : Shape).Reduces [1] ⟨1, ![b]⟩) (hφ : FKind.Formats .f32) (hacc : acc = FKind.add.neutral .f32 hφ)
    (hc : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ (multiReduction .add [1] ⟨1, ![b]⟩ m acc h hφ hacc) hc) hb (ix2 p c)
      = ∑ k : Fin n, m (ix2 c k) :=
  (broadcastTo_1b_ab_apply _ hb p c).trans <|
    (shapeCast_a_1a_apply _ hc (0 : Fin 1) c).trans
      (Cert.LibKeepdims.multiReduction_add_lastAxis_apply m acc h hφ hacc c)

end Cert.LibTileLayout
-- ==== Proof.PayloadDist.lean ====
/-
  The kernel's tile of squared distances read at an index. One grid point loads a block `x0` of 1024 ground-truth
  points and a block `x1` of the 4096 predicted points of the same batch (each a row of three coordinates, under a
  leading unit axis) and forms the 1024 × 4096 matrix whose entry `(r, j)` is
      (|x0_r|² + |x1_j|²) − 2 · (x0_r0 · x1_j0 + x0_r1 · x1_j1 + x0_r2 · x1_j2):
  the squared norms are last-axis sums of the blocks' squares, spread over the tile as a column and as a row; each
  product of coordinates is a column of `x0` spread along the rows times a column of `x1`, turned into a row, spread
  along the columns. Read at `(r, j)` every spread piece is one entry or one row sum of a block, and the three products
  are the sum over the three coordinates: the entry is the specification's `tileDist x0 x1 r j`.
-/
import proofs.«138694_j11665131176430_1_alg».proof.Proof.Gen.KernelIdeal.Skeleton
import proofs.«138694_j11665131176430_1_alg».proof.Proof.Spec
import proofs.«138694_j11665131176430_1_alg».proof.Proof.LibTileLayout

noncomputable section

open scoped BigOperators

namespace Cert.KernelIdeal.Payload

open Idealize.ShloMosaic Idealize.ShloMosaic.ValueIdx

open Cert.LibTileLayout in
/-- The tile of squared distances, read at row `r` and column `j`: the two squared norms, each a sum over the three
    coordinates, minus twice the inner product of row `r` of the tile's block with row `j` of the cloud's block. -/
theorem pay4_apply (x0 : Vec Ideal S1x1024x3 .f32) (x1 : Vec Ideal S1x4096x3 .f32) (r : Fin 1024) (j : Fin 4096) :
    Gen.k0_pay4 x0 x1 (ix2 r j) = Cert.Chamfer.tileDist x0 x1 r j := by
  -- the two blocks without their leading unit axis, read at a row and a coordinate
  have e0 : ∀ k : Fin 3, shapeCast S1024x3 x0 Gen.shapeCasts_S1x1024x3_S1024x3 (ix2 r k) = x0 (ix3 0 r k) :=
    fun k => shapeCast_1ab_ab_apply x0 _ r k
  have e1 : ∀ k : Fin 3, shapeCast S4096x3 x1 Gen.shapeCasts_S1x4096x3_S4096x3 (ix2 j k) = x1 (ix3 0 j k) :=
    fun k => shapeCast_1ab_ab_apply x1 _ j k
  unfold Gen.k0_pay4
  simp only [subf_apply, addf_apply, mulf_apply, broadcast_apply]
  refine (congrArg₂ (fun a b : EReal => a - b)
    (congrArg₂ (fun a b : EReal => a + b)
      (broadcastTo_rowSum_apply _ _ _ _ _ _ _ r j)
      (broadcastTo_rowSum_row_apply _ _ _ _ _ _ _ r j))
    (congrArg (fun a : EReal => FloatOps.ofBits (F := Ideal) FTy.f32 0x40000000#32 * a)
      (congrArg₂ (fun a b : EReal => a + b)
        (congrArg₂ (fun a b : EReal => a + b)
          (congrArg₂ (fun a b : EReal => a * b)
            (broadcastTo_sliceCol_apply 0 _ _ _ r j (0 : Fin 3) rfl) (broadcastTo_sliceCol_row_apply 0 _ _ _ _ _ r j (0 : Fin 3) rfl))
          (congrArg₂ (fun a b : EReal => a * b)
            (broadcastTo_sliceCol_apply 1 _ _ _ r j (1 : Fin 3) rfl) (broadcastTo_sliceCol_row_apply 1 _ _ _ _ _ r j (1 : Fin 3) rfl)))
        (congrArg₂ (fun a b : EReal => a * b)
          (broadcastTo_sliceCol_apply 2 _ _ _ r j (2 : Fin 3) rfl) (broadcastTo_sliceCol_row_apply 2 _ _ _ _ _ r j (2 : Fin 3) rfl))))).trans ?_
  simp only [mulf_apply, e0, e1]
  unfold Cert.Chamfer.tileDist
  exact congrArg₂ (fun a b : EReal => a - b) rfl
    (congrArg (fun a : EReal => Cert.Chamfer.two * a)
      (Fin.sum_univ_three fun k : Fin 3 => x0 (ix3 0 r k) * x1 (ix3 0 j k)).symm)

end Cert.KernelIdeal.Payload

end
-- ==== Proof.PayloadMin.lean ====
/-
  The kernel's minima read at an index. From the 1024 × 4096 tile of squared distances one grid point takes
  • the minimum of every ROW (over the 4096 predicted points), stored as `[1, 1024, 1]`: the squared distance from each
    ground-truth point of the tile to its nearest predicted point;
  • the minimum of every COLUMN (over the tile's 1024 ground-truth points), as a row `[1, 4096]`, stored as
    `[1, 1, 4096]` at the first row tile of a batch, and at a later row tile combined by `min` with the entry
    stored so far.
  A minimum reduction starts from `+∞`, which is `⊤` on the extended reals, and folds `min`, which commutes and
  associates: read at an index it is the infimum over the reduced coordinate. The column minima are stated first for
  ANY tile `v38`, then for the tile of squared distances, where they are the specification's `tileColMin`; the row
  minima are its `tileRowMin`.
-/
import proofs.«138694_j11665131176430_1_alg».proof.Proof.PayloadDist

noncomputable section

namespace Cert.KernelIdeal.Payload

open Idealize.ShloMosaic Idealize.ShloMosaic.ValueIdx

open Cert.LibTileLayout in
/-- The column minima of a tile `v38`, as a row `[1, 4096]`: at `(u, j)` the infimum of column `j`. -/
theorem pay1_apply (v38 : FVec Ideal S1024x4096 .f32) (u : Fin 1) (j : Fin 4096) :
    Gen.k0_pay1 v38 (ix2 u j) = (Finset.univ.inf fun r : Fin 1024 => v38 (ix2 r j) : EReal) := by
  unfold Gen.k0_pay1
  exact (shapeCast_a_1a_apply _ _ u j).trans
    (multiReduction_minimumf_firstAxis_apply v38 _ _ _ _ ofBits_posInf_f32 j)

/-- The column minima stored at the first row tile of a batch: at `(u0, u1, j)` the infimum of column `j` of the tile. -/
theorem pay2_apply (v38 : FVec Ideal S1024x4096 .f32) (u0 u1 : Fin 1) (j : Fin 4096) :
    Gen.k0_pay2 v38 (ix3 u0 u1 j) = (Finset.univ.inf fun r : Fin 1024 => v38 (ix2 r j) : EReal) := by
  unfold Gen.k0_pay2
  exact (shapeCast_ab_1ab_apply _ _ u0 u1 j).trans (pay1_apply v38 u1 j)

/-- The column minima stored at a later row tile: at `(u0, u1, j)` the smaller of the stored entry and the infimum of
    column `j` of the tile. -/
theorem pay3_apply (v38 : FVec Ideal S1024x4096 .f32) (v52 : Vec Ideal S1x1x4096 .f32) (u0 u1 : Fin 1) (j : Fin 4096) :
    Gen.k0_pay3 v38 v52 (ix3 u0 u1 j)
      = min (v52 (ix3 u0 u1 j)) (Finset.univ.inf fun r : Fin 1024 => v38 (ix2 r j) : EReal) := by
  unfold Gen.k0_pay3
  refine (shapeCast_ab_1ab_apply _ _ u0 u1 j).trans ?_
  refine (minimumf_apply _ _ (ix2 u1 j)).trans ?_
  refine congrArg₂ (fun a b : EReal => min a b) ?_ (pay1_apply v38 u1 j)
  refine (shapeCast_1ab_ab_apply v52 _ u1 j).trans ?_
  rw [Subsingleton.elim u0 (0 : Fin 1)]

open Cert.LibTileLayout in
/-- The row minima of the tile of squared distances, stored as `[1, 1024, 1]`: at `(u0, r, u2)` the squared distance
    from row `r` of the tile's block to its nearest point of the cloud's block. -/
theorem pay5_apply (x0 : Vec Ideal S1x1024x3 .f32) (x1 : Vec Ideal S1x4096x3 .f32) (r : Fin 1024) (u0 u2 : Fin 1) :
    Gen.k0_pay5 x0 x1 (ix3 u0 r u2) = Cert.Chamfer.tileRowMin x0 x1 r := by
  unfold Gen.k0_pay5
  refine (shapeCast_ab_1ab_apply _ _ u0 r u2).trans ?_
  refine (Cert.LibKeepdims.shapeCast_a_a1_apply _ _ r u2).trans ?_
  refine (multiReduction_minimumf_lastAxis_apply (Gen.k0_pay4 x0 x1) _ _ _ _ ofBits_posInf_f32 r).trans ?_
  exact Finset.inf_congr rfl fun j _ => pay4_apply x0 x1 r j

/-- The infimum of column `j` of the tile of squared distances is the squared distance from point `j` of the cloud's
    block to its nearest row of the tile's block. -/
theorem colMin_pay4 (x0 : Vec Ideal S1x1024x3 .f32) (x1 : Vec Ideal S1x4096x3 .f32) (j : Fin 4096) :
    (Finset.univ.inf fun r : Fin 1024 => Gen.k0_pay4 x0 x1 (ix2 r j) : EReal) = Cert.Chamfer.tileColMin x0 x1 j :=
  Finset.inf_congr rfl fun r _ => pay4_apply x0 x1 r j

/-- At the first row tile of a batch the stored column minima are the tile's. -/
theorem pay2_pay4_apply (x0 : Vec Ideal S1x1024x3 .f32) (x1 : Vec Ideal S1x4096x3 .f32) (u0 u1 : Fin 1) (j : Fin 4096) :
    Gen.k0_pay2 (Gen.k0_pay4 x0 x1) (ix3 u0 u1 j) = Cert.Chamfer.tileColMin x0 x1 j :=
  (pay2_apply (Gen.k0_pay4 x0 x1) u0 u1 j).trans (colMin_pay4 x0 x1 j)

/-- At a later row tile the stored column minima are the smaller of the stored entry and the tile's. -/
theorem pay3_pay4_apply (x0 : Vec Ideal S1x1024x3 .f32) (x1 : Vec Ideal S1x4096x3 .f32) (v52 : Vec Ideal S1x1x4096 .f32)
    (u0 u1 : Fin 1) (j : Fin 4096) :
    Gen.k0_pay3 (Gen.k0_pay4 x0 x1) v52 (ix3 u0 u1 j) = min (v52 (ix3 u0 u1 j)) (Cert.Chamfer.tileColMin x0 x1 j) :=
  (pay3_apply (Gen.k0_pay4 x0 x1) v52 u0 u1 j).trans (congrArg (fun a : EReal => min (v52 (ix3 u0 u1 j)) a) (colMin_pay4 x0 x1 j))

end Cert.KernelIdeal.Payload

end
-- ==== Proof.Payload.lean ====
/-
  The kernel's payloads read at an index, gathered: the tile of squared distances (PayloadDist) and its row and
  column minima (PayloadMin).
-/
import proofs.«138694_j11665131176430_1_alg».proof.Proof.PayloadDist
import proofs.«138694_j11665131176430_1_alg».proof.Proof.PayloadMin
-- ==== Proof.Tiles.lean ====
/-
  The 4096 points of a cloud in four runs of 1024: the infimum of a function over the points below the end of run
  `k` starts as the infimum over run 0, takes in one run per step, and after run 3 is the infimum over all points.
  This is what a buffer holds that is reset to the first run's infimum and then combined, by `min`, with each later
  run's.
-/
import Idealize.ShloMosaic.PureOps.Ideal

noncomputable section

namespace Cert.Tiles

/-- The infimum of `f` over run `s`: the points `s · 1024 + r`, `r < 1024`. -/
def tileInf (f : Fin 4096 → EReal) (s : ℕ) (hs : s < 4) : EReal :=
  Finset.univ.inf fun r : Fin 1024 => f ⟨s * 1024 + r.val, by have := r.isLt; omega⟩

/-- The infimum of `f` over the points of runs `0 … k`. -/
def infBelow (f : Fin 4096 → EReal) (k : ℕ) : EReal :=
  (Finset.univ.filter fun i : Fin 4096 => i.val < (k + 1) * 1024).inf f

end Cert.Tiles

end
-- ==== Proof.TilesLemmas.lean ====
/-
  The steps of the running infimum over four runs of 1024 points. Run `s` is the set of points `i` with
  `s · 1024 ≤ i < (s + 1) · 1024`: the infimum over the run, written over the offsets `r < 1024`, is the infimum over
  that set (each point of the set is `s · 1024 + r` for one `r`, and conversely). The points below the end of run `s`
  are those below the end of run `s − 1` together with run `s`, so the infimum over them is the `min` of the two
  infima; below the end of run 0 there is only run 0; below the end of run 3 there is every point.
-/
import proofs.«138694_j11665131176430_1_alg».proof.Proof.Tiles

namespace Cert.Tiles

/-- The infimum over run `s`, written over its offsets, is the infimum over the set of its points. -/
theorem tileInf_eq_filter (f : Fin 4096 → EReal) (s : ℕ) (hs : s < 4) :
    tileInf f s hs = (Finset.univ.filter fun i : Fin 4096 => s * 1024 ≤ i.val ∧ i.val < (s + 1) * 1024).inf f := by
  unfold tileInf
  refine le_antisymm (Finset.le_inf fun i hi => ?_) (Finset.le_inf fun r _ => Finset.inf_le ?_)
  · -- a point of the run is `s · 1024 + r` with `r` its offset
    have hi' := (Finset.mem_filter.mp hi).2
    have hr : i.val - s * 1024 < 1024 := by omega
    have e : (⟨s * 1024 + (⟨i.val - s * 1024, hr⟩ : Fin 1024).val, by have := i.isLt; omega⟩ : Fin 4096) = i :=
      Fin.ext (by show s * 1024 + (i.val - s * 1024) = i.val; omega)
    exact (Finset.inf_le (Finset.mem_univ (⟨i.val - s * 1024, hr⟩ : Fin 1024))).trans (le_of_eq (congrArg f e))
  · -- and `s · 1024 + r` is a point of the run
    refine Finset.mem_filter.mpr ⟨Finset.mem_univ _, ?_⟩
    have := r.isLt
    show s * 1024 ≤ s * 1024 + r.val ∧ s * 1024 + r.val < (s + 1) * 1024
    omega

/-- Below the end of run 0 there is only run 0. -/
theorem infBelow_zero (f : Fin 4096 → EReal) (s : ℕ) (hs : s < 4) (h : s = 0) : infBelow f s = tileInf f s hs := by
  subst h
  rw [tileInf_eq_filter]
  unfold infBelow
  exact congrArg (fun S : Finset (Fin 4096) => S.inf f) (Finset.filter_congr fun i _ => by omega)

/-- The points below the end of run `s`, `s` not the first, are those below the end of run `s − 1` and run `s`. -/
theorem infBelow_succ (f : Fin 4096 → EReal) (s : ℕ) (hs : s < 4) (h : s ≠ 0) :
    infBelow f s = min (infBelow f (s - 1)) (tileInf f s hs) := by
  rw [tileInf_eq_filter]
  unfold infBelow
  have hU : (Finset.univ.filter fun i : Fin 4096 => i.val < (s + 1) * 1024)
      = (Finset.univ.filter fun i : Fin 4096 => i.val < (s - 1 + 1) * 1024)
        ∪ (Finset.univ.filter fun i : Fin 4096 => s * 1024 ≤ i.val ∧ i.val < (s + 1) * 1024) := by
    ext i
    simp only [Finset.mem_union, Finset.mem_filter, Finset.mem_univ, true_and]
    omega
  rw [hU]
  exact Finset.inf_union

/-- Below the end of run 3 there is every point. -/
theorem infBelow_last (f : Fin 4096 → EReal) : infBelow f 3 = Finset.univ.inf f := by
  unfold infBelow
  exact congrArg (fun S : Finset (Fin 4096) => S.inf f)
    (Finset.filter_true_of_mem fun i _ => by have := i.isLt; omega)

end Cert.Tiles
-- ==== Proof.KI.Value.lean ====
/-
  What the two output buffers hold after the body at each point, read at an index. The row-minima buffer holds, at
  row `r` of point `t`'s tile, the squared distance from that ground-truth row to its nearest predicted point. The
  column-minima buffer holds, at predicted point `j`, the infimum of the squared distances from `j` to the
  ground-truth rows of the batch's tiles up to and including this one: the first tile resets it to its own column
  minima and each later tile takes the minimum with its own — so after the last tile of a batch it is the squared
  distance from `j` to its nearest ground-truth point.
-/
import proofs.«138694_j11665131176430_1_alg».proof.Proof.KI.Pieces
import proofs.«138694_j11665131176430_1_alg».proof.Proof.KI.Blocks
import proofs.«138694_j11665131176430_1_alg».proof.Proof.Payload
import proofs.«138694_j11665131176430_1_alg».proof.Proof.TilesLemmas

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Chamfer
open scoped BigOperators

variable (m : (ℓ : Loc nD τ sig) → Buf (Elt Ideal) ℓ) (ρ : Dev nD → PrngReg)

open Cert.KernelIdeal.Payload

/-- In batch `b`, the squared distances from predicted point `j`, as a function of the ground-truth row. -/
def colDist (c : Dev nD) (b : Fin 16) (j : Fin 4096) : Fin 4096 → EReal := fun i => sqDist (gt m c) (pr m c) b i j

theorem rowsAt_apply (c : Dev nD) (t : Fin cfg0.N) (u0 : Fin 1) (r : Fin 1024) (u2 : Fin 1) :
    (rowsAt m c t : Vec Ideal S1x1024x1 .f32) (ix3 u0 r u2) = nearestPred (gt m c) (pr m c) (batch t) (row t r) := by
  by_cases h0 : t.val % 4 = 0
  · rw [rowsAt_first m c t h0, rowsFirst_eq]
    exact (pay5_apply (iblk m c 0 t) (iblk m c 1 t) r u0 u2).trans (tileRowMin_block m c t r)
  · rw [rowsAt_later m c t h0, rowsLater_eq]
    exact (pay5_apply (iblk m c 0 t) (iblk m c 1 t) r u0 u2).trans (tileRowMin_block m c t r)

/-- A tile's column minimum, as the infimum over one run of rows. -/
theorem tileCol_eq (c : Dev nD) (t : Fin cfg0.N) (j : Fin 4096) :
    tileColMin (iblk m c 0 t : Vec Ideal S1x1024x3 .f32) (iblk m c 1 t : Vec Ideal S1x4096x3 .f32) j
      = Cert.Tiles.tileInf (colDist m c (batch t) j) (t.val % 4) (Nat.mod_lt _ (by decide)) :=
  tileColMin_block m c t j

theorem colsAt_apply (c : Dev nD) : ∀ (n : ℕ) (hn : n < cfg0.N) (u0 u1 : Fin 1) (j : Fin 4096),
    (colsAt m c n hn : Vec Ideal S1x1x4096 .f32) (ix3 u0 u1 j) = Cert.Tiles.infBelow (colDist m c (batch ⟨n, hn⟩) j) (n % 4) := by
  have first : ∀ (t : Fin cfg0.N) (h0 : t.val % 4 = 0) (u0 u1 : Fin 1) (j : Fin 4096),
      (colsAt m c t.val t.isLt : Vec Ideal S1x1x4096 .f32) (ix3 u0 u1 j) = Cert.Tiles.infBelow (colDist m c (batch t) j) (t.val % 4) := by
    intro t h0 u0 u1 j
    rw [colsAt_first m c t h0, colsFirst_eq]
    refine (pay2_pay4_apply (iblk m c 0 t) (iblk m c 1 t) u0 u1 j).trans ?_
    rw [tileCol_eq]
    exact (Cert.Tiles.infBelow_zero _ _ _ h0).symm
  intro n
  induction n with
  | zero => intro hn u0 u1 j; exact first ⟨0, hn⟩ rfl u0 u1 j
  | succ n ih =>
    intro hn u0 u1 j
    by_cases h0 : (n + 1) % 4 = 0
    · exact first ⟨n + 1, hn⟩ h0 u0 u1 j
    · have hn' : n < cfg0.N := Nat.lt_of_succ_lt hn
      rw [colsAt_later m c ⟨n + 1, hn⟩ h0, colsLater_eq]
      refine (pay3_pay4_apply (iblk m c 0 ⟨n + 1, hn⟩) (iblk m c 1 ⟨n + 1, hn⟩) _ u0 u1 j).trans ?_
      rw [tileCol_eq, Cert.Tiles.infBelow_succ _ ((n + 1) % 4) (Nat.mod_lt _ (by decide)) h0]
      have hb : batch ⟨n, hn'⟩ = batch ⟨n + 1, hn⟩ := Fin.ext (by show n / 4 = (n + 1) / 4; omega)
      have hk : n % 4 = (n + 1) % 4 - 1 := by omega
      have e := ih hn' u0 u1 j
      rw [hb, hk] at e
      exact congrArg (fun x => min x _) e

end Cert.KernelIdeal.Hand

end
-- ==== Proof.LibSumIdx3.lean ====
/-
  Sums over a rank-3 index set, by coordinates. The index set of a shape `[n0, n1, n2]` is the product of its three
  coordinate ranges, so a sum over it is the triple sum over the coordinates; when one axis has extent one the sum
  over that axis is its single term, and what is left is the double sum over the two other coordinates with the
  unit coordinate at `0`.
-/
import Idealize.ShloMosaic.Lib.ValueIdx

noncomputable section

open scoped BigOperators

namespace Cert.LibSumIdx3

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Over a shape `[n0, n1, 1]`: the double sum over the first two coordinates, the last at `0`. -/
theorem sum_idx3_unit_last {M : Type*} [AddCommMonoid M] {n0 n1 : Nat} (f : (⟨3, ![n0, n1, 1]⟩ : Shape).Idx → M) :
    ∑ i, f i = ∑ a : Fin n0, ∑ b : Fin n1, f (ix3 a b 0) := by
  rw [sum_idx3]
  refine Finset.sum_congr rfl fun a _ => Finset.sum_congr rfl fun b _ => ?_
  exact Fin.sum_univ_one _

/-- Over a shape `[n0, 1, n2]`: the double sum over the first and last coordinates, the middle one at `0`. -/
theorem sum_idx3_unit_mid {M : Type*} [AddCommMonoid M] {n0 n2 : Nat} (f : (⟨3, ![n0, 1, n2]⟩ : Shape).Idx → M) :
    ∑ i, f i = ∑ a : Fin n0, ∑ c : Fin n2, f (ix3 a 0 c) := by
  rw [sum_idx3]
  refine Finset.sum_congr rfl fun a _ => ?_
  exact Fin.sum_univ_one _

end Cert.LibSumIdx3

end
-- ==== Proof.KITail.lean ====
/-
  The host lines that follow the kernel. The kernel leaves two arrays: the row minima `[16, 4096, 1]` (for every
  ground-truth point the distance to its nearest predicted point) and the column minima `[16, 1, 4096]` (for every
  predicted point the distance to its nearest ground-truth point). The lines after it sum each array over all its
  entries from the float `0`, divide each sum by the count `65536`, and add the two quotients. A sum over all three
  axes is the sum over the whole index set; with the unit axis's one coordinate at `0` that is the double sum over
  the batch and the point. So the result is the mean of the column minima plus the mean of the row minima, whatever
  the two arrays hold.
-/
import proofs.«138694_j11665131176430_1_alg».proof.Proof.Gen.KernelIdeal.Launch
import proofs.«138694_j11665131176430_1_alg».proof.Proof.Spec
import proofs.«138694_j11665131176430_1_alg».proof.Proof.LibSumIdx3
import Idealize.ShloMosaic.Lib.StableHlo.Run
import Idealize.ShloMosaic.Lib.ValueIdx
import Idealize.ShloMosaic.PureOps.Ideal.Laws

noncomputable section

open scoped BigOperators

namespace Cert.KernelIdeal.Tail

open Cert.KernelIdeal Cert.KernelIdeal.Gen Idealize.ShloMosaic Idealize.ShloMosaic.TcCoe Idealize.SL.Sem
open Idealize.ShloMosaic.StableHlo Idealize.ShloMosaic.ValueIdx
open Cert.Chamfer Cert.LibSumIdx3

/-- The kernel's array of row minima, `[16, 4096, 1]`, summed over every entry from the float `0`: `0` plus the
    double sum over the batch and the row, the unit coordinate at `0`. -/
theorem total_rows (y : FVec Ideal S16x4096x1 .f32) (i : S_.Idx) :
    Host.reduceAdd (F := Ideal) y (constant S_ .f32 0x00000000#32) reducesTo_S16x4096x1_S_d0_1_2 h_S_ i
      = 0 + ∑ b : Fin 16, ∑ r : Fin 4096, y (ix3 b r 0) := by
  simp only [Host.reduceAdd, Ideal.hostReduceAdd_def]
  rw [Ideal.hostReduceAdd_total reducesTo_S16x4096x1_S_d0_1_2 (fun b => b.elim0) y _ i, sum_idx3_unit_last]
  show Ideal.ofBits .f32 0x00000000#32 + _ = _
  rw [Ideal.ofBits_zero_f32]

/-- The kernel's array of column minima, `[16, 1, 4096]`, summed likewise: `0` plus the double sum over the batch and
    the column, the unit coordinate at `0`. -/
theorem total_cols (y : FVec Ideal S16x1x4096 .f32) (i : S_.Idx) :
    Host.reduceAdd (F := Ideal) y (constant S_ .f32 0x00000000#32) reducesTo_S16x1x4096_S_d0_1_2 h_S_ i
      = 0 + ∑ b : Fin 16, ∑ j : Fin 4096, y (ix3 b 0 j) := by
  simp only [Host.reduceAdd, Ideal.hostReduceAdd_def]
  rw [Ideal.hostReduceAdd_total reducesTo_S16x1x4096_S_d0_1_2 (fun b => b.elim0) y _ i, sum_idx3_unit_mid]
  show Ideal.ofBits .f32 0x00000000#32 + _ = _
  rw [Ideal.ofBits_zero_f32]

/-- THE HOST LINES AFTER THE KERNEL: from any contents `W` of the core's buffers they leave in the result the mean of the
    column-minima array plus the mean of the row-minima array, each mean the sum over the array's `16 · 4096` entries
    from `0`, divided by the count. -/
theorem tail_v5 (c : Dev nD) (W : Valuation τ sig (Elt Ideal)) :
    StableHlo.after (Gen.hostOps1 (F := Ideal)) W (Proc.devRef .tc main_v5)
      = (fun _ : S_.Idx =>
          mean (∑ b : Fin 16, ∑ j : Fin 4096, (W (Proc.devRef .tc main_v0_1) : FVec Ideal S16x1x4096 .f32) (ix3 b 0 j))
            + mean (∑ b : Fin 16, ∑ i : Fin 4096, (W (Proc.devRef .tc main_v0_0) : FVec Ideal S16x4096x1 .f32) (ix3 b i 0))) := by
  after_results
  funext i
  show Ideal.div (Host.reduceAdd (F := Ideal) (W (Proc.devRef .tc main_v0_1) : FVec Ideal S16x1x4096 .f32) (constant S_ .f32 0x00000000#32) reducesTo_S16x1x4096_S_d0_1_2 h_S_ i) (Ideal.ofBits .f32 0x47800000#32)
      + Ideal.div (Host.reduceAdd (F := Ideal) (W (Proc.devRef .tc main_v0_0) : FVec Ideal S16x4096x1 .f32) (constant S_ .f32 0x00000000#32) reducesTo_S16x4096x1_S_d0_1_2 h_S_ i) (Ideal.ofBits .f32 0x47800000#32) = _
  rw [total_cols, total_rows]
  rfl

end Cert.KernelIdeal.Tail

end
-- ==== Proof.KI.Arrays.lean ====
/-
  From blocks to arrays, and on to the result. Every point writes its row-minima block back, and these blocks tile the
  row-minima array: it ends holding, at ground-truth point `i` of batch `b`, the squared distance to the nearest
  predicted point. The column-minima block of a batch is written back after its last tile, when it holds the infimum
  over all four tiles: that array ends holding, at predicted point `j` of batch `b`, the squared distance to the
  nearest ground-truth point. The host lines after the launch take the two means and add them: the Chamfer loss.
-/
import proofs.«138694_j11665131176430_1_alg».proof.Proof.KI.Value
import proofs.«138694_j11665131176430_1_alg».proof.Proof.KITail
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Chamfer
open scoped BigOperators

variable (m : (ℓ : Loc nD τ sig) → Buf (Elt Ideal) ℓ) (ρ : Dev nD → PrngReg)

/-- The row-minima array and the column-minima array, as functions of the two clouds. -/
def rowsArr (c : Dev nD) : S16x4096x1.Idx → EReal := fun i => nearestPred (gt m c) (pr m c) (i 0) (i 1)
def colsArr (c : Dev nD) : S16x1x4096.Idx → EReal := fun i => nearestGt (gt m c) (pr m c) (i 0) (i 2)

/-! ## The row-minima window -/

theorem flushed2_eq (c : Dev nD) (t : Fin cfg0.N) :
    (dats m 0 c).flushed 2 t = ((cfg0.win 2).blk t).view.read (Elt Ideal) (rowsArr m c) := by
  show (cfg0.win 2).cut (grid0.coords t) ((dats m 0 c).after 2 t) = _
  rw [after2]
  funext y
  obtain ⟨u0, r, u2, rfl⟩ : ∃ (u0 : Fin 1) (r : Fin 1024) (u2 : Fin 1), y = ix3 u0 r u2 := ⟨y 0, y 1, y 2, eq_ix3 y⟩
  show (rowsAt m c t : Vec Ideal S1x1024x1 .f32) (ix3 u0 r u2) = rowsArr m c (((cfg0.win 2).blk t).view.emb (ix3 u0 r u2))
  rw [rowsAt_apply]
  obtain ⟨-, -, -, -, -, -, e0, e1, e2, -⟩ := index_facts t
  have ea : batch t = (((cfg0.win 2).blk t).view.emb (ix3 u0 r u2)) 0 :=
    Fin.ext (by show t.val / 4 = win0_2.index t (0 : Fin 3) * 1 + 1 * u0.val; omega)
  have eb : row t r = (((cfg0.win 2).blk t).view.emb (ix3 u0 r u2)) 1 :=
    Fin.ext (by show t.val % 4 * 1024 + r.val = win0_2.index t (1 : Fin 3) * 1024 + 1 * r.val; omega)
  unfold rowsArr
  rw [← ea, ← eb]

theorem mem_blk2 (t : Fin cfg0.N) (i : S16x4096x1.Idx) :
    i ∈ ((cfg0.win 2).blk t).view.set ↔ ∀ a : Fin 3, win0_2.index t a * S1x1024x1.size a ≤ (i a).val ∧ (i a).val < win0_2.index t a * S1x1024x1.size a + S1x1024x1.size a := by
  show i ∈ ((View.whole main_v0_0).slice (win0_2.rect t)).set ↔ _
  rw [View.set_slice_whole, Rect.mem_set_unit]
  exact Iff.rfl

theorem cover2 (i : S16x4096x1.Idx) : ∃ t : Fin cfg0.N, (cfg0.win 2).flush t = true ∧ i ∈ ((cfg0.win 2).blk t).view.set := by
  have h0 : (i 0).val < 16 := (i 0).isLt
  have h1 : (i 1).val < 4096 := (i 1).isLt
  have h2 : (i 2).val < 1 := (i 2).isLt
  obtain ⟨t, tv⟩ : ∃ t : Fin cfg0.N, t.val = 4 * (i 0).val + (i 1).val / 1024 :=
    ⟨⟨4 * (i 0).val + (i 1).val / 1024, by rw [show cfg0.N = 64 from N_0]; omega⟩, rfl⟩
  refine ⟨t, flush0_2 t, ?_⟩
  rw [mem_blk2]
  obtain ⟨-, -, -, -, -, -, e0, e1, e2, -⟩ := index_facts t
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1 ≤ (i 2).val ∧ (i 2).val < win0_2.index t (2 : Fin 3) * 1 + 1; omega

theorem final2 (c : Dev nD) : (dats m 0 c).arrAt 2 cfg0.N = rowsArr m c :=
  (dats m 0 c).arrAt_eq_of_cover 2 (rowsArr m c) (fun t _ => flushed2_eq m c t) cover2

/-! ## The column-minima window -/

theorem flushed3_eq (c : Dev nD) (t : Fin cfg0.N) (hf : (cfg0.win 3).flush t = true) :
    (dats m 0 c).flushed 3 t = ((cfg0.win 3).blk t).view.read (Elt Ideal) (colsArr m c) := by
  have h3 : t.val % 4 = 3 := (flush0_3 t).mp hf
  show (cfg0.win 3).cut (grid0.coords t) ((dats m 0 c).after 3 t) = _
  rw [after3]
  funext y
  obtain ⟨u0, u1, j, rfl⟩ : ∃ (u0 : Fin 1) (u1 : Fin 1) (j : Fin 4096), y = ix3 u0 u1 j := ⟨y 0, y 1, y 2, eq_ix3 y⟩
  show (colsAt m c t.val t.isLt : Vec Ideal S1x1x4096 .f32) (ix3 u0 u1 j) = colsArr m c (((cfg0.win 3).blk t).view.emb (ix3 u0 u1 j))
  rw [colsAt_apply, h3, Cert.Tiles.infBelow_last]
  obtain ⟨-, -, -, -, -, -, -, -, -, e0, e1, e2⟩ := index_facts t
  have ea : batch ⟨t.val, t.isLt⟩ = (((cfg0.win 3).blk t).view.emb (ix3 u0 u1 j)) 0 :=
    Fin.ext (by show t.val / 4 = win0_3.index t (0 : Fin 3) * 1 + 1 * u0.val; omega)
  have eb : j = (((cfg0.win 3).blk t).view.emb (ix3 u0 u1 j)) 2 :=
    Fin.ext (by show j.val = win0_3.index t (2 : Fin 3) * 4096 + 1 * j.val; omega)
  unfold colsArr nearestGt
  rw [← ea, ← eb]
  rfl

theorem mem_blk3 (t : Fin cfg0.N) (i : S16x1x4096.Idx) :
    i ∈ ((cfg0.win 3).blk t).view.set ↔ ∀ a : Fin 3, win0_3.index t a * S1x1x4096.size a ≤ (i a).val ∧ (i a).val < win0_3.index t a * S1x1x4096.size a + S1x1x4096.size a := by
  show i ∈ ((View.whole main_v0_1).slice (win0_3.rect t)).set ↔ _
  rw [View.set_slice_whole, Rect.mem_set_unit]
  exact Iff.rfl

theorem cover3 (i : S16x1x4096.Idx) : ∃ t : Fin cfg0.N, (cfg0.win 3).flush t = true ∧ i ∈ ((cfg0.win 3).blk t).view.set := by
  have h0 : (i 0).val < 16 := (i 0).isLt
  have h1 : (i 1).val < 1 := (i 1).isLt
  have h2 : (i 2).val < 4096 := (i 2).isLt
  obtain ⟨t, tv⟩ : ∃ t : Fin cfg0.N, t.val = 4 * (i 0).val + 3 :=
    ⟨⟨4 * (i 0).val + 3, by rw [show cfg0.N = 64 from N_0]; omega⟩, rfl⟩
  refine ⟨t, (flush0_3 t).mpr (by omega), ?_⟩
  rw [mem_blk3]
  obtain ⟨-, -, -, -, -, -, -, -, -, e0, e1, e2⟩ := index_facts t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 4096 ≤ (i 2).val ∧ (i 2).val < win0_3.index t (2 : Fin 3) * 4096 + 4096; omega

theorem final3 (c : Dev nD) : (dats m 0 c).arrAt 3 cfg0.N = colsArr m c :=
  (dats m 0 c).arrAt_eq_of_cover 3 (colsArr m c) (fun t hf => flushed3_eq m c t hf) cover3

/-! ## The host lines after the launch, and the run with its result named -/

theorem result_eq (c : Dev nD) :
    Pipeline.afterTail₀ cfgs (dats m) 0 (V0 m) [hostOps1] c main_v5 = (fun _ : S_.Idx => loss (gt m c) (pr m c)) := by
  unfold Pipeline.afterTail₀
  show StableHlo.after hostOps1 _ (Proc.devRef .tc main_v5) = _
  rw [Cert.KernelIdeal.Tail.tail_v5 c]
  have e3 := (Pipeline.withArrays_arr spec0 launch0.win.arr_inj c (V0 m c) (fun w => (dats m 0 c).arrAt w cfg0.N) 3).trans (final3 m c)
  have e2 := (Pipeline.withArrays_arr spec0 launch0.win.arr_inj c (V0 m c) (fun w => (dats m 0 c).arrAt w cfg0.N) 2).trans (final2 m c)
  rw [e3, e2]
  rfl

/-- Every weakly fair execution of the idealized kernel program terminates with the Chamfer loss of its two
    argument arrays in its result, the arguments unchanged. -/
theorem run_loss : θ_run defs (onTc (τ := τ) (main (F := Ideal))) ⟨m, fun _ => 0, ρ⟩ fun r => ∀ c : Dev nD,
      r.2.mem ((c.tc : Thread nD τ).loc main_v5) = (fun _ : S_.Idx => loss (gt m c) (pr m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v5 (by decide)).trans (result_eq m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c)))⟩)
    (run_main m ρ)

end Cert.KernelIdeal.Hand

end
-- ==== Proof.RefDist.lean ====
/-
  The reference's matrix of squared distances, read at an index. For a batch `b`, a ground-truth row `i` and a
  predicted row `j` the reference forms `|g_i|²` and `|p_j|²` as sums over the three coordinates started from the
  float `0`, spreads the first along the columns and the second along the rows, adds them, and subtracts twice the
  inner product `⟨g_i, p_j⟩`, itself a sum over the one contracted axis. Each sum started from `0` is the plain
  sum (`0 + s = s`), so the entry is the specification's `sqDist`.
-/
import proofs.«138694_j11665131176430_1_alg».proof.Proof.Gen.ReferenceIdeal.Read
import proofs.«138694_j11665131176430_1_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Chamfer

/-- The squared-norm sums read their operand's row `(b, i)`, coordinate by coordinate. -/
theorem idx_norm_gt (b : Fin 16) (i j : Fin 4096) (k : Fin 3) :
    idx_main_v1 (idx_main_v5 (idx_main_v7 (ix3 b i j))) k = ix3 b i k :=
  funext fun a => Fin.ext (by match a with | ⟨0, _⟩ => rfl | ⟨1, _⟩ => rfl | ⟨2, _⟩ => rfl)

/-- The predicted points' squared norms are read at row `(b, j)`. -/
theorem idx_norm_pred (b : Fin 16) (i j : Fin 4096) (k : Fin 3) :
    idx_main_v3 (idx_main_v6 (idx_main_v8 (ix3 b i j))) k = ix3 b j k :=
  funext fun a => Fin.ext (by match a with | ⟨0, _⟩ => rfl | ⟨1, _⟩ => rfl | ⟨2, _⟩ => rfl)

/-- The inner product's left factor is coordinate `k` of ground-truth row `(b, i)`. -/
theorem idx_dot_left (b : Fin 16) (i j : Fin 4096) (k : Fin 3) :
    lidx_main_v4 (ix3 b i j) k = ix3 b i k :=
  funext fun a => Fin.ext (by match a with | ⟨0, _⟩ => rfl | ⟨1, _⟩ => rfl | ⟨2, _⟩ => rfl)

/-- The inner product's right factor is coordinate `k` of predicted row `(b, j)`. -/
theorem idx_dot_right (b : Fin 16) (i j : Fin 4096) (k : Fin 3) :
    ridx_main_v4 (ix3 b i j) k = ix3 b j k :=
  funext fun a => Fin.ext (by match a with | ⟨0, _⟩ => rfl | ⟨1, _⟩ => rfl | ⟨2, _⟩ => rfl)

/-- Entry `(b, i, j)` of the reference's distance matrix is the squared distance from ground-truth point `i` to
    predicted point `j` of batch `b` (`x1` the ground truth, `x0` the prediction). -/
theorem dist_apply (x0 x1 : (⟨S16x4096x3, .f32⟩ : BufTy).Contents (Elt Ideal)) (b : Fin 16) (i j : Fin 4096) :
    val_main_v12 (F := Ideal) x0 x1 (ix3 b i j) = sqDist x1 x0 b i j := by
  rw [val_main_v12_apply, val_main_v9_apply, val_main_v11_apply, val_main_v7_apply, val_main_v5_apply,
    val_main_v1_apply, val_main_v8_apply, val_main_v6_apply, val_main_v3_apply, val_main_v10_apply,
    val_main_cst_1_apply, val_main_v4_apply, val_main_cst_apply, val_main_cst_0_apply]
  simp only [val_main_v0_apply, val_main_v2_apply, idx_norm_gt, idx_norm_pred, idx_dot_left, idx_dot_right,
    Ideal.ofBits_def, Ideal.addf_def, Ideal.subf_def, Ideal.mulf_def, Ideal.ofBits_zero_f32, zero_add]
  rfl

end Cert.ReferenceIdeal.RefValue

end
-- ==== Proof.RefLoss.lean ====
/-
  The reference's result is the specification's Chamfer loss.
  Its matrix of squared distances (read at an index in the module imported below) is reduced twice by a minimum
  started from the float `+∞`: over the ground-truth axis, which leaves for every predicted point the distance to
  its nearest ground-truth point, and over the predicted axis, which leaves for every ground-truth point the
  distance to its nearest predicted point. A minimum is commutative and associative, so each reduction is the fold
  of `min` from `⊤` over the reduced axis's coordinates, that is, the infimum over them. Each array of minima is
  then summed over all its `16 · 4096` entries from the float `0` — the sum over a rank-2 index set is the double
  sum over its coordinates — and divided by the count; the result is the sum of the two means.
-/
import proofs.«138694_j11665131176430_1_alg».proof.Proof.RefDist
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo
open Cert.Chamfer

/-- The distance matrix reduces over its ground-truth axis (axis 1) to a `[16, 4096]` array … -/
theorem red_d1 : S16x4096x4096.Reduces [1] S16x4096 := by decide
/-- … and over its predicted axis (axis 2) likewise. -/
theorem red_d2 : S16x4096x4096.Reduces [2] S16x4096 := by decide

/-- Over result index `(b, j)` of the reduction along axis 1, coordinate `k` of the reduced axis sits at `(b, k, j)`. -/
theorem lift_d1 (b : Fin 16) (j : Fin 4096) (k : Fin 4096) :
    red_d1.lift (ix2 b j) k = ix3 b k j :=
  funext fun a => Fin.ext (by match a with | ⟨0, _⟩ => rfl | ⟨1, _⟩ => rfl | ⟨2, _⟩ => rfl)

/-- Over result index `(b, i)` of the reduction along axis 2, coordinate `k` of the reduced axis sits at `(b, i, k)`. -/
theorem lift_d2 (b : Fin 16) (i : Fin 4096) (k : Fin 4096) :
    red_d2.lift (ix2 b i) k = ix3 b i k :=
  funext fun a => Fin.ext (by match a with | ⟨0, _⟩ => rfl | ⟨1, _⟩ => rfl | ⟨2, _⟩ => rfl)

/-- The float `+∞` is the top of the extended reals. -/
theorem inf_top : Ideal.ofBits .f32 0x7F800000#32 = (⊤ : EReal) := by simp [Ideal.ofBits, Ideal.ieee]

/-- A minimum from `+∞` along axis 1 of a `[16, 4096, 4096]` array is, at `(b, j)`, the infimum over `i` of the
    entries `(b, i, j)`: the fold of `min` from `⊤` over the axis's coordinates, in any order. -/
theorem reduce_min_d1 (y : FVec Ideal S16x4096x4096 .f32) (b : Fin 16) (j : Fin 4096) :
    Host.reduce FloatOps.minimumf y (constant (F := Ideal) S_ .f32 0x7F800000#32) reducesTo_S16x4096x4096_S16x4096_d1 h_S_ (ix2 b j)
      = Finset.univ.inf fun i : Fin 4096 => y (ix3 b i j) := by
  rw [Host.reduce_eq_fold_single FloatOps.minimumf y _ reducesTo_S16x4096x4096_S16x4096_d1 red_d1 h_S_ (ix2 b j)]
  show Finset.fold min (Ideal.ofBits .f32 0x7F800000#32) (fun k : Fin 4096 => y (red_d1.lift (ix2 b j) k)) Finset.univ = _
  rw [inf_top]
  simp only [lift_d1]
  rfl

/-- The same along axis 2: at `(b, i)`, the infimum over `j` of the entries `(b, i, j)`. -/
theorem reduce_min_d2 (y : FVec Ideal S16x4096x4096 .f32) (b : Fin 16) (i : Fin 4096) :
    Host.reduce FloatOps.minimumf y (constant (F := Ideal) S_ .f32 0x7F800000#32) reducesTo_S16x4096x4096_S16x4096_d2 h_S_ (ix2 b i)
      = Finset.univ.inf fun j : Fin 4096 => y (ix3 b i j) := by
  rw [Host.reduce_eq_fold_single FloatOps.minimumf y _ reducesTo_S16x4096x4096_S16x4096_d2 red_d2 h_S_ (ix2 b i)]
  show Finset.fold min (Ideal.ofBits .f32 0x7F800000#32) (fun k : Fin 4096 => y (red_d2.lift (ix2 b i) k)) Finset.univ = _
  rw [inf_top]
  simp only [lift_d2]
  rfl

/-- Entry `(b, j)` of the reference's minima over the ground-truth axis: the squared distance from predicted point
    `j` to its nearest ground-truth point. -/
theorem colMin_apply (x0 x1 : (⟨S16x4096x3, .f32⟩ : BufTy).Contents (Elt Ideal)) (b : Fin 16) (j : Fin 4096) :
    val_main_v13 (F := Ideal) x0 x1 (ix2 b j) = nearestGt x1 x0 b j := by
  unfold val_main_v13 val_main_cst_2
  rw [reduce_min_d1]
  unfold nearestGt
  exact congrArg (Finset.univ.inf) (funext fun i => dist_apply x0 x1 b i j)

/-- Entry `(b, i)` of the reference's minima over the predicted axis: the squared distance from ground-truth point
    `i` to its nearest predicted point. -/
theorem rowMin_apply (x0 x1 : (⟨S16x4096x3, .f32⟩ : BufTy).Contents (Elt Ideal)) (b : Fin 16) (i : Fin 4096) :
    val_main_v16 (F := Ideal) x0 x1 (ix2 b i) = nearestPred x1 x0 b i := by
  unfold val_main_v16 val_main_cst_5
  rw [reduce_min_d2]
  unfold nearestPred
  exact congrArg (Finset.univ.inf) (funext fun j => dist_apply x0 x1 b i j)

/-- The reference's first mean: the minima over the ground-truth axis summed over every batch and predicted point,
    from `0`, divided by the count. -/
theorem meanGt_apply (x0 x1 : (⟨S16x4096x3, .f32⟩ : BufTy).Contents (Elt Ideal)) (i : S_.Idx) :
    val_main_v15 (F := Ideal) x0 x1 i = mean (∑ b : Fin 16, ∑ j : Fin 4096, nearestGt x1 x0 b j) := by
  rw [val_main_v15_apply, val_main_v14_apply, val_main_cst_3_apply, val_main_cst_4_apply, sum_idx2]
  simp only [colMin_apply, Ideal.hostDivf_def, Ideal.ofBits_def, Ideal.ofBits_zero_f32]
  rfl

/-- The reference's second mean: the minima over the predicted axis summed over every batch and ground-truth point,
    from `0`, divided by the count. -/
theorem meanPred_apply (x0 x1 : (⟨S16x4096x3, .f32⟩ : BufTy).Contents (Elt Ideal)) (i : S_.Idx) :
    val_main_v18 (F := Ideal) x0 x1 i = mean (∑ b : Fin 16, ∑ i : Fin 4096, nearestPred x1 x0 b i) := by
  rw [val_main_v18_apply, val_main_v17_apply, val_main_cst_6_apply, val_main_cst_7_apply, sum_idx2]
  simp only [rowMin_apply, Ideal.hostDivf_def, Ideal.ofBits_def, Ideal.ofBits_zero_f32]
  rfl

/-- THE REFERENCE IS THE SPECIFICATION: its result, as the last stage of its operations, is the Chamfer loss of the
    ground truth `x1` and the prediction `x0`. -/
theorem loss_apply (x0 x1 : (⟨S16x4096x3, .f32⟩ : BufTy).Contents (Elt Ideal)) :
    val_main_v19 (F := Ideal) x0 x1 = fun _ => loss x1 x0 := by
  funext i
  rw [val_main_v19_apply, meanGt_apply, meanPred_apply, Ideal.addf_def]
  rfl

/-- The same, stated of the composed term of the two argument arrays that the reference's run leaves in its result. -/
theorem run_term_eq_loss (x0 x1 : FVec Ideal S16x4096x3 .f32) :
    addf (F := Ideal) (Host.divf (Host.reduceAdd (Host.reduce FloatOps.minimumf (subf (addf (broadcastInDim S16x4096x4096 ![0, 1, 2] bcast_S16x4096x1_S16x4096x4096_0_1_2 (broadcastInDim S16x4096x1 ![0, 1] bcast_S16x4096_S16x4096x1_0_1 (Host.reduceAdd (mulf (x1) (x1)) (constant S_ .f32 0x00000000#32) reducesTo_S16x4096x3_S16x4096_d2 h_S_))) (broadcastInDim S16x4096x4096 ![0, 1, 2] bcast_S16x1x4096_S16x4096x4096_0_1_2 (broadcastInDim S16x1x4096 ![0, 2] bcast_S16x4096_S16x1x4096_0_2 (Host.reduceAdd (mulf (x0) (x0)) (constant S_ .f32 0x00000000#32) reducesTo_S16x4096x3_S16x4096_d2 h_S_)))) (mulf (broadcastInDim S16x4096x4096 ![] bcast_S_S16x4096x4096 (constant S_ .f32 0x40000000#32)) (Host.dotGeneral dot_S16x4096x3_S16x4096x3_S16x4096x4096_2_2_1_1_0_0 none (x1) (x0)))) (constant S_ .f32 0x7F800000#32) reducesTo_S16x4096x4096_S16x4096_d1 h_S_) (constant S_ .f32 0x00000000#32) reducesTo_S16x4096_S_d0_1 h_S_) (constant S_ .f32 0x47800000#32)) (Host.divf (Host.reduceAdd (Host.reduce FloatOps.minimumf (subf (addf (broadcastInDim S16x4096x4096 ![0, 1, 2] bcast_S16x4096x1_S16x4096x4096_0_1_2 (broadcastInDim S16x4096x1 ![0, 1] bcast_S16x4096_S16x4096x1_0_1 (Host.reduceAdd (mulf (x1) (x1)) (constant S_ .f32 0x00000000#32) reducesTo_S16x4096x3_S16x4096_d2 h_S_))) (broadcastInDim S16x4096x4096 ![0, 1, 2] bcast_S16x1x4096_S16x4096x4096_0_1_2 (broadcastInDim S16x1x4096 ![0, 2] bcast_S16x4096_S16x1x4096_0_2 (Host.reduceAdd (mulf (x0) (x0)) (constant S_ .f32 0x00000000#32) reducesTo_S16x4096x3_S16x4096_d2 h_S_)))) (mulf (broadcastInDim S16x4096x4096 ![] bcast_S_S16x4096x4096 (constant S_ .f32 0x40000000#32)) (Host.dotGeneral dot_S16x4096x3_S16x4096x3_S16x4096x4096_2_2_1_1_0_0 none (x1) (x0)))) (constant S_ .f32 0x7F800000#32) reducesTo_S16x4096x4096_S16x4096_d2 h_S_) (constant S_ .f32 0x00000000#32) reducesTo_S16x4096_S_d0_1 h_S_) (constant S_ .f32 0x47800000#32))
      = fun _ => loss x1 x0 :=
  (val_main_v19_eq (F := Ideal) x0 x1).trans (loss_apply x0 x1)

/-- THE REFERENCE'S RUN, with its result named by the specification: on every device, from any memory with zero
    counters, every weakly fair execution terminates with the result the Chamfer loss of the launch contents of the
    ground truth (argument 1) and the prediction (argument 0), and the two arguments unchanged. -/
theorem run_loss (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19)
          = (fun _ : S_.Idx => loss (m ((c.tc : Thread nD τ).loc main_arg1)) (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (run_term_eq_loss _ _), (h c).2⟩)
    (Cert.ReferenceIdeal.Value.run (F := Ideal) m ρ)

end Cert.ReferenceIdeal.RefValue

end
-- ==== Proof.lean ====
/-
  The kernel computes the Chamfer loss of two batches of point clouds tile by tile, the reference computes it whole;
  at the ideal instance (a float an extended real, every operation exact) the two are one function of the argument
  arrays.

  For each batch `b`, ground-truth point `i` and predicted point `j` both programs form the squared distance as
  `(|g_i|² + |p_j|²) - 2 · ⟨g_i, p_j⟩`, the norms and the inner product sums over the three coordinates (the kernel
  spells the inner product as three products added, the reference as a contraction: the same sum). The reference takes
  the minimum over all `i` for each `j`, the minimum over all `j` for each `i`, and adds the two means. The kernel walks a
  grid of 16 batches × 4 tiles of 1024 ground-truth rows: a tile's row minima are final and are written out at once; its
  column minima are kept in a block that the first tile of a batch resets and each later tile lowers by a minimum, and
  that is written out after the batch's fourth tile, when it holds the minimum over all 4096 rows — minimum being
  associative and commutative, the order and grouping do not matter. The host lines after the launch take the same two
  means and add them. Nothing here needs the inputs to be finite: no law used fails at an infinity.

  The three frames: each kernel program's frame is the launch theorem applied to the two runs of its body (first tile /
  later tile), the same text at the word-level and at the ideal instance; the reference's frame is its run with the
  result dropped. The idealization rewrote no operation, so there is nothing to preserve.
-/
import proofs.«138694_j11665131176430_1_alg».proof.Defs
import proofs.«138694_j11665131176430_1_alg».proof.Proof.Gen.Kernel
import proofs.«138694_j11665131176430_1_alg».proof.Proof.Gen.KernelIdeal
import proofs.«138694_j11665131176430_1_alg».proof.Proof.Gen.ReferenceIdeal
import proofs.«138694_j11665131176430_1_alg».proof.Proof.Gen.ReferenceIdeal.Run
import proofs.«138694_j11665131176430_1_alg».proof.Proof.Gen.ReferenceIdeal.Read
import proofs.«138694_j11665131176430_1_alg».proof.Proof.Gen.Pre_finite_inputs
import proofs.«138694_j11665131176430_1_alg».proof.Proof.K.Body
import proofs.«138694_j11665131176430_1_alg».proof.Proof.KI.Arrays
import proofs.«138694_j11665131176430_1_alg».proof.Proof.RefLoss
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Hand.frame m ρ

/-- So does the idealized kernel program. -/
theorem frame_kernelIdeal : Cert.frame_KernelIdeal := fun m ρ _ => Cert.KernelIdeal.Hand.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the two clouds, both idealized programs end with the Chamfer loss of those clouds. -/
theorem algebraic : Cert.algebraic_KernelIdeal_ReferenceIdeal := by
  intro m ρ m' ρ' _ hagree
  refine ⟨_, Cert.KernelIdeal.Hand.run_loss m ρ, ?_⟩
  refine (θ_run Cert.ReferenceIdeal.defs _ _).mono (fun _ h c => ⟨?_, (h c).2⟩) (Cert.ReferenceIdeal.RefValue.run_loss m' ρ')
  rw [(h c).1, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
